-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2 : Shape := ⟨2, ![64, 2]⟩
abbrev S100000 : Shape := ⟨1, ![100000]⟩
abbrev S2x1600000 : Shape := ⟨2, ![2, 1600000]⟩
abbrev S1600000 : Shape := ⟨1, ![1600000]⟩
abbrev S10000x256 : Shape := ⟨2, ![10000, 256]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S768x64 : Shape := ⟨2, ![768, 64]⟩
abbrev S64x32 : Shape := ⟨2, ![64, 32]⟩
abbrev S32 : Shape := ⟨1, ![32]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S768x64 : S_.BroadcastsInDim S768x64 (![] : Fin 0 → Fin S768x64.rank)
  reducesTo_S768x64_S_d0_1 : S768x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S64 .f32) (main_arg16 : FVec F S64x32 .f32) (main_arg17 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg16
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg17
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg11 : FVec F S256 .f32) (main_arg12 : FVec F S768x64 .f32) (main_arg13 : FVec F S64 .f32) (main_arg14 : FVec F S64x64 .f32) (main_arg15 : FVec F S64 .f32) (main_arg16 : FVec F S64x32 .f32) (main_arg17 : FVec F S32 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x64 .f32 := Host.absf main_arg12
  let main_cst_14 : FVec F S_ .f32 := constant S_ .f32 0x7F800000#32
  let main_v40 : FVec F S768x64 .f32 := broadcastInDim S768x64 ![] bcast_S_S768x64 main_cst_14
  let main_v41 : IVec S768x64 1 := cmpf .olt main_v39 main_v40
  let main_c_15 : IVec S_ 1 := constantI S_ 1 1#1
  let main_v42 : IVec S_ 1 := (fun x v => Host.reduce IntOp.andi x v reducesTo_S768x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_v48 main_v49 main_v50

def fn_part1 {F : FTy → Type} [FloatOps F] (main_arg8 : FVec F S64x64 .f32) (main_arg9 : FVec F S64 .f32) (main_arg10 : FVec F S64x256 .f32) (main_arg11 : FVec F S256 .f32) (main_arg12 : FVec F S768x64 .f32) (main_arg13 : FVec F S64 .f32) (main_arg14 : FVec F S64x64 .f32) (main_arg15 : FVec F S64 .f32) (main_arg16 : FVec F S64x32 .f32) (main_arg17 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg10
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S64x2 32) (main_arg1 : IVec S100000 32) (main_arg2 : IVec S2x1600000 32) (main_arg3 : FVec F S1600000 .f32) (main_arg4 : IVec S100000 32) (main_arg5 : FVec F S10000x256 .f32) (main_arg6 : FVec F S256x64 .f32) (main_arg7 : FVec F S64 .f32) (main_arg8 : FVec F S64x64 .f32) (main_arg9 : FVec F S64 .f32) (main_arg10 : FVec F S64x256 .f32) (main_arg11 : FVec F S256 .f32) (main_arg12 : FVec F S768x64 .f32) (main_arg13 : FVec F S64 .f32) (main_arg14 : FVec F S64x64 .f32) (main_arg15 : FVec F S64 .f32) (main_arg16 : FVec F S64x32 .f32) (main_arg17 : FVec F S32 .f32) : IVec S_ 1 :=
  let main_v0 : FVec F S1600000 .f32 := Host.absf main_arg3
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S10000x256 .f32 := Host.absf main_arg5
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x64 .f32 := Host.absf main_arg6
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_v13 main_v16
-- ==== Kernel.lean ====
abbrev S64x2 : Shape := ⟨2, ![64, 2]⟩
abbrev S100000 : Shape := ⟨1, ![100000]⟩
abbrev S2x1600000 : Shape := ⟨2, ![2, 1600000]⟩
abbrev S1600000 : Shape := ⟨1, ![1600000]⟩
abbrev S10000x256 : Shape := ⟨2, ![10000, 256]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S768x64 : Shape := ⟨2, ![768, 64]⟩
abbrev S64x32 : Shape := ⟨2, ![64, 32]⟩
abbrev S32 : Shape := ⟨1, ![32]⟩
abbrev S1x1600000 : Shape := ⟨2, ![1, 1600000]⟩
abbrev S_ : Shape := ⟨0, ![]⟩
abbrev S100000x1 : Shape := ⟨2, ![100000, 1]⟩
abbrev S100000x256 : Shape := ⟨2, ![100000, 256]⟩
abbrev S100000x64 : Shape := ⟨2, ![100000, 64]⟩
abbrev S5000x256 : Shape := ⟨2, ![5000, 256]⟩
abbrev S5000x64 : Shape := ⟨2, ![5000, 64]⟩
abbrev S1600000x1 : Shape := ⟨2, ![1600000, 1]⟩
abbrev S1600000x64 : Shape := ⟨2, ![1600000, 64]⟩
abbrev S1x64 : Shape := ⟨2, ![1, 64]⟩
abbrev S64x1 : Shape := ⟨2, ![64, 1]⟩
abbrev S1x256 : Shape := ⟨2, ![1, 256]⟩
abbrev S1x32 : Shape := ⟨2, ![1, 32]⟩
abbrev S64x768 : Shape := ⟨2, ![64, 768]⟩

abbrev nBuf : Space → Nat
  | .hbm => 183
  | .vmem => 22
  | .smem => 0
  | _ => 0

abbrev hbmTy0_0 (i : Nat) : BufTy := match i % 128 with
  | 0 => ⟨S64x2, .i32⟩
  | 1 => ⟨S100000, .i32⟩
  | 2 => ⟨S2x1600000, .i32⟩
  | 3 => ⟨S1600000, .f32⟩
  | 4 => ⟨S100000, .i32⟩
  | 5 => ⟨S10000x256, .f32⟩
  | 6 => ⟨S256x64, .f32⟩
  | 7 => ⟨S64, .f32⟩
  | 8 => ⟨S64x64, .f32⟩
  | 9 => ⟨S64, .f32⟩
  | 10 => ⟨S64x256, .f32⟩
  | 11 => ⟨S256, .f32⟩
  | 12 => ⟨S768x64, .f32⟩
  | 13 => ⟨S64, .f32⟩
  | 14 => ⟨S64x64, .f32⟩
  | 15 => ⟨S64, .f32⟩
  | 16 => ⟨S64x32, .f32⟩
  | 17 => ⟨S32, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x256, .f32⟩
  | 31 => ⟨S100000x64, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S1600000x1, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S100000, .f32⟩
  | 95 => ⟨S100000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S1600000x1, .f32⟩
  | 126 => ⟨S1600000x64, .f32⟩
  | 127 => ⟨S1600000x64, .f32⟩
  | _ => ⟨S64x2, .i32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S100000, .f32⟩
  | 5 => ⟨S100000x1, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000, .f32⟩
  | 14 => ⟨S_, .f32⟩
  | 15 => ⟨S64, .f32⟩
  | 16 => ⟨S100000x1, .i32⟩
  | 17 => ⟨S64, .f32⟩
  | 18 => ⟨S_, .f32⟩
  | 19 => ⟨S64x64, .f32⟩
  | 20 => ⟨S100000x1, .i32⟩
  | 21 => ⟨S64x64, .f32⟩
  | 22 => ⟨S_, .f32⟩
  | 23 => ⟨S64, .f32⟩
  | 24 => ⟨S64, .f32⟩
  | 25 => ⟨S64x1, .f32⟩
  | 26 => ⟨S64x64, .f32⟩
  | 27 => ⟨S64x64, .f32⟩
  | 28 => ⟨S64x1, .i32⟩
  | 29 => ⟨S64, .i32⟩
  | 30 => ⟨S_, .i32⟩
  | 31 => ⟨S64, .i32⟩
  | 32 => ⟨S64, .i1⟩
  | 33 => ⟨S_, .i32⟩
  | 34 => ⟨S64, .i32⟩
  | 35 => ⟨S64, .i32⟩
  | 36 => ⟨S64, .i32⟩
  | 37 => ⟨S64x1, .i32⟩
  | 38 => ⟨S64x256, .f32⟩
  | 39 => ⟨S64x1, .i32⟩
  | 40 => ⟨S64, .i32⟩
  | 41 => ⟨S_, .i32⟩
  | 42 => ⟨S64, .i32⟩
  | 43 => ⟨S64, .i1⟩
  | 44 => ⟨S_, .i32⟩
  | 45 => ⟨S64, .i32⟩
  | 46 => ⟨S64, .i32⟩
  | 47 => ⟨S64, .i32⟩
  | 48 => ⟨S64x1, .i32⟩
  | 49 => ⟨S64x256, .f32⟩
  | 50 => ⟨S1x256, .f32⟩
  | 51 => ⟨S1x64, .f32⟩
  | 52 => ⟨S1x64, .f32⟩
  | 53 => ⟨S1x32, .f32⟩
  | 54 => ⟨S64x32, .f32⟩
  | _ => ⟨S64x2, .i32⟩

abbrev hbmTy (i : Nat) : BufTy := match i / 128 with
  | 0 => hbmTy0_0 i
  | 1 => hbmTy0_1 i
  | _ => ⟨S64x2, .i32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S1x256, .f32⟩
  | .local _ .vmem, ⟨15, _⟩ => ⟨S768x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S64x32, .f32⟩
  | .local _ .vmem, ⟨20, _⟩ => ⟨S1x32, .f32⟩
  | .local _ .vmem, ⟨21, _⟩ => ⟨S64x32, .f32⟩
  | _, _ => ⟨S64x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_cst : Ref sig .tc := ⟨.hbm, 84, rfl⟩
abbrev main_call0_v0 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_13 : Ref sig .tc := ⟨.hbm, 106, rfl⟩
abbrev main_v71 : Ref sig .tc := ⟨.hbm, 107, rfl⟩
abbrev main_v72 : Ref sig .tc := ⟨.hbm, 108, rfl⟩
abbrev main_c_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_15 : Ref sig .tc := ⟨.hbm, 116, rfl⟩
abbrev main_v79 : Ref sig .tc := ⟨.hbm, 117, rfl⟩
abbrev main_v80 : Ref sig .tc := ⟨.hbm, 118, rfl⟩
abbrev main_c_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_18 : Ref sig .tc := ⟨.hbm, 140, rfl⟩
abbrev main_v100 : Ref sig .tc := ⟨.hbm, 141, rfl⟩
abbrev main_cst_19 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_20 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_21 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_c_22 : Ref sig .tc := ⟨.hbm, 158, rfl⟩
abbrev main_v114 : Ref sig .tc := ⟨.hbm, 159, rfl⟩
abbrev main_v115 : Ref sig .tc := ⟨.hbm, 160, rfl⟩
abbrev main_c_23 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_24 : Ref sig .tc := ⟨.hbm, 169, rfl⟩
abbrev main_v123 : Ref sig .tc := ⟨.hbm, 170, rfl⟩
abbrev main_v124 : Ref sig .tc := ⟨.hbm, 171, rfl⟩
abbrev main_c_25 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc2_stg11_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem11_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  slices_S64x2_S64x1_0_0 : S64x2.Slices ![0, 0] S64x1
  shapeCasts_S64x1_S64 : S64x1.ShapeCasts S64
  slices_S64x2_S64x1_0_1 : S64x2.Slices ![0, 1] S64x1
  shapeCasts_S256_S1x256 : S256.ShapeCasts S1x256
  shapeCasts_S64_S1x64 : S64.ShapeCasts S1x64
  shapeCasts_S32_S1x32 : S32.ShapeCasts S1x32
  shapeCasts_S64x64_S64x64 : S64x64.ShapeCasts S64x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  shapeCasts_S64x256_S64x256 : S64x256.ShapeCasts S64x256
  concatenates_S64x256_S64x256_S64x256_S64x768_d1 : Shape.Concatenates [S64x256, S64x256, S64x256] S64x768 1
  inb_S768x64_S768x64_0_0 : ∀ a, (![0, 0] : Fin 2 → Nat) a + S768x64.size a ≤ S768x64.size a
  h_S768x64 : 0 < S768x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  gather_S10000x256_S100000x1_S100000x256_1_0_n_n_0_1_1256_wf : GatherDims.WF S10000x256 S100000x1 S100000x256 [1] [0] [] [0] [] 1 ![1, 256]
  dot_S5000x256_S256x64_S5000x64_1_0_0_1_n_n_wf : DotDims.WF S5000x256 S256x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  gather_S10000x256_S64x1_S64x256_1_0_n_n_0_1_1256_wf : GatherDims.WF S10000x256 S64x1 S64x256 [1] [0] [] [0] [] 1 ![1, 256]
  dot_S64x64_S64x256_S64x256_1_0_0_1_n_n_wf : DotDims.WF S64x64 S64x256 S64x256 [1] [0] [0] [1] [] []
  dot_S64x768_S768x64_S64x64_1_0_0_1_n_n_wf : DotDims.WF S64x768 S768x64 S64x64 [1] [0] [0] [1] [] []
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x64.size a ≤ S64x64.size a
  hwx2_0 : ∀ i : grid2.Coords, EltTy.bits .f32 = 32 ∨ (Rect.block (s := S64x64) S64x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S768x64.size a ≤ S768x64.size a
  hwx2_5 : ∀ i : grid2.Coords, EltTy.bits .f32 = 32 ∨ (Rect.block (s := S768x64) S768x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x32.size a ≤ S64x32.size a
  hwx2_9 : ∀ i : grid2.Coords, EltTy.bits .f32 = 32 ∨ (Rect.block (s := S64x32) S64x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x32.size a ≤ S64x32.size a
  hwx2_11 : ∀ i : grid2.Coords, EltTy.bits .f32 = 32 ∨ (Rect.block (s := S64x32) S64x32.size (cc2_transform_11 i) (hinb2_11 i)).WholeWords (EltTy.packing .f32)

variable [Facts₀]

def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def gather_S10000x256_S64x1_S64x256_1_0_n_n_0_1_1256 : GatherDims S10000x256 S64x1 S64x256 where
  offsetDims := [1]
  collapsedSliceDims := [0]
  operandBatchingDims := []
  startIndicesBatchingDims := []
  startIndexMap := [0]
  indexVectorDim := 1
  sliceSizes := ![1, 256]
  wf := gather_S10000x256_S64x1_S64x256_1_0_n_n_0_1_1256_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x768_S768x64_S64x64_1_0_0_1_n_n : DotDims S64x768 S768x64 S64x64 where
  lhsContracting := [1]
  rhsContracting := [0]
  lhsNonContracting := [0]
  rhsNonContracting := [1]
  lhsBatch := []
  rhsBatch := []
  wf := dot_S64x768_S768x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_v10) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v111) S64x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v120) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v129) S64x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v130) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S768x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v131) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v132) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S64x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v133) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v134) S64x32.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S64x2 : Shape := ⟨2, ![64, 2]⟩
abbrev S100000 : Shape := ⟨1, ![100000]⟩
abbrev S2x1600000 : Shape := ⟨2, ![2, 1600000]⟩
abbrev S1600000 : Shape := ⟨1, ![1600000]⟩
abbrev S10000x256 : Shape := ⟨2, ![10000, 256]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S768x64 : Shape := ⟨2, ![768, 64]⟩
abbrev S64x32 : Shape := ⟨2, ![64, 32]⟩
abbrev S32 : Shape := ⟨1, ![32]⟩
abbrev S1x1600000 : Shape := ⟨2, ![1, 1600000]⟩
abbrev S_ : Shape := ⟨0, ![]⟩
abbrev S100000x1 : Shape := ⟨2, ![100000, 1]⟩
abbrev S100000x256 : Shape := ⟨2, ![100000, 256]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S64x1 : Shape := ⟨2, ![64, 1]⟩
abbrev S1x256 : Shape := ⟨2, ![1, 256]⟩
abbrev S64x768 : Shape := ⟨2, ![64, 768]⟩
abbrev S1x32 : Shape := ⟨2, ![1, 32]⟩

abbrev nBuf : Space → Nat
  | .hbm => 201
  | .vmem => 0
  | .smem => 0
  | _ => 0

abbrev hbmTy0_0 (i : Nat) : BufTy := match i % 128 with
  | 0 => ⟨S64x2, .i32⟩
  | 1 => ⟨S100000, .i32⟩
  | 2 => ⟨S2x1600000, .i32⟩
  | 3 => ⟨S1600000, .f32⟩
  | 4 => ⟨S100000, .i32⟩
  | 5 => ⟨S10000x256, .f32⟩
  | 6 => ⟨S256x64, .f32⟩
  | 7 => ⟨S64, .f32⟩
  | 8 => ⟨S64x64, .f32⟩
  | 9 => ⟨S64, .f32⟩
  | 10 => ⟨S64x256, .f32⟩
  | 11 => ⟨S256, .f32⟩
  | 12 => ⟨S768x64, .f32⟩
  | 13 => ⟨S64, .f32⟩
  | 14 => ⟨S64x64, .f32⟩
  | 15 => ⟨S64, .f32⟩
  | 16 => ⟨S64x32, .f32⟩
  | 17 => ⟨S32, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x256, .f32⟩
  | 31 => ⟨S100000x64, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S100000, .f32⟩
  | 95 => ⟨S100000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S1600000x1, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x64, .f32⟩
  | 127 => ⟨S1600000x64, .f32⟩
  | _ => ⟨S64x2, .i32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S100000, .f32⟩
  | 5 => ⟨S100000x1, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000, .f32⟩
  | 14 => ⟨S_, .f32⟩
  | 15 => ⟨S64, .f32⟩
  | 16 => ⟨S100000x1, .i32⟩
  | 17 => ⟨S64, .f32⟩
  | 18 => ⟨S_, .f32⟩
  | 19 => ⟨S64x64, .f32⟩
  | 20 => ⟨S100000x1, .i32⟩
  | 21 => ⟨S64x64, .f32⟩
  | 22 => ⟨S_, .f32⟩
  | 23 => ⟨S64, .f32⟩
  | 24 => ⟨S64, .f32⟩
  | 25 => ⟨S64x1, .f32⟩
  | 26 => ⟨S64x64, .f32⟩
  | 27 => ⟨S64x64, .f32⟩
  | 28 => ⟨S64x256, .f32⟩
  | 29 => ⟨S1x256, .f32⟩
  | 30 => ⟨S64x256, .f32⟩
  | 31 => ⟨S64x256, .f32⟩
  | 32 => ⟨S64x1, .i32⟩
  | 33 => ⟨S64, .i32⟩
  | 34 => ⟨S_, .i32⟩
  | 35 => ⟨S64, .i32⟩
  | 36 => ⟨S64, .i1⟩
  | 37 => ⟨S_, .i32⟩
  | 38 => ⟨S64, .i32⟩
  | 39 => ⟨S64, .i32⟩
  | 40 => ⟨S64, .i32⟩
  | 41 => ⟨S64x1, .i32⟩
  | 42 => ⟨S64x256, .f32⟩
  | 43 => ⟨S64x1, .i32⟩
  | 44 => ⟨S64, .i32⟩
  | 45 => ⟨S_, .i32⟩
  | 46 => ⟨S64, .i32⟩
  | 47 => ⟨S64, .i1⟩
  | 48 => ⟨S_, .i32⟩
  | 49 => ⟨S64, .i32⟩
  | 50 => ⟨S64, .i32⟩
  | 51 => ⟨S64, .i32⟩
  | 52 => ⟨S64x1, .i32⟩
  | 53 => ⟨S64x256, .f32⟩
  | 54 => ⟨S64x768, .f32⟩
  | 55 => ⟨S64x64, .f32⟩
  | 56 => ⟨S1x64, .f32⟩
  | 57 => ⟨S64x64, .f32⟩
  | 58 => ⟨S64x64, .f32⟩
  | 59 => ⟨S_, .f32⟩
  | 60 => ⟨S64x64, .f32⟩
  | 61 => ⟨S64x64, .f32⟩
  | 62 => ⟨S64x64, .f32⟩
  | 63 => ⟨S1x64, .f32⟩
  | 64 => ⟨S64x64, .f32⟩
  | 65 => ⟨S64x64, .f32⟩
  | 66 => ⟨S_, .f32⟩
  | 67 => ⟨S64x64, .f32⟩
  | 68 => ⟨S64x64, .f32⟩
  | 69 => ⟨S64x32, .f32⟩
  | 70 => ⟨S1x32, .f32⟩
  | 71 => ⟨S64x32, .f32⟩
  | 72 => ⟨S64x32, .f32⟩
  | _ => ⟨S64x2, .i32⟩

abbrev hbmTy (i : Nat) : BufTy := match i / 128 with
  | 0 => hbmTy0_0 i
  | 1 => hbmTy0_1 i
  | _ => ⟨S64x2, .i32⟩

abbrev bufTy : (tb : Table) → Fin (tcTables nBuf tb) → BufTy
  | .hbm, ⟨i, _⟩ => hbmTy i
  | _, _ => ⟨S64x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_cst : Ref sig .tc := ⟨.hbm, 84, rfl⟩
abbrev main_call0_v0 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_13 : Ref sig .tc := ⟨.hbm, 106, rfl⟩
abbrev main_v71 : Ref sig .tc := ⟨.hbm, 107, rfl⟩
abbrev main_v72 : Ref sig .tc := ⟨.hbm, 108, rfl⟩
abbrev main_c_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_15 : Ref sig .tc := ⟨.hbm, 117, rfl⟩
abbrev main_v80 : Ref sig .tc := ⟨.hbm, 118, rfl⟩
abbrev main_v81 : Ref sig .tc := ⟨.hbm, 119, rfl⟩
abbrev main_c_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_18 : Ref sig .tc := ⟨.hbm, 140, rfl⟩
abbrev main_v100 : Ref sig .tc := ⟨.hbm, 141, rfl⟩
abbrev main_cst_19 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_20 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_21 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_22 : Ref sig .tc := ⟨.hbm, 162, rfl⟩
abbrev main_v118 : Ref sig .tc := ⟨.hbm, 163, rfl⟩
abbrev main_v119 : Ref sig .tc := ⟨.hbm, 164, rfl⟩
abbrev main_c_23 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_24 : Ref sig .tc := ⟨.hbm, 173, rfl⟩
abbrev main_v127 : Ref sig .tc := ⟨.hbm, 174, rfl⟩
abbrev main_v128 : Ref sig .tc := ⟨.hbm, 175, rfl⟩
abbrev main_c_25 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_call1_cst : Ref sig .tc := ⟨.hbm, 187, rfl⟩
abbrev main_call1_v0 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_call2_cst : Ref sig .tc := ⟨.hbm, 194, rfl⟩
abbrev main_call2_v0 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  slices_S64x2_S64x1_0_0 : S64x2.Slices ![0, 0] S64x1
  shapeCasts_S64x1_S64 : S64x1.ShapeCasts S64
  slices_S64x2_S64x1_0_1 : S64x2.Slices ![0, 1] S64x1
  concatenates_S64x256_S64x256_S64x256_S64x768_d1 : Shape.Concatenates [S64x256, S64x256, S64x256] S64x768 1
  bcast_S1x64_S64x64_0_1 : S1x64.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  gather_S10000x256_S100000x1_S100000x256_1_0_n_n_0_1_1256_wf : GatherDims.WF S10000x256 S100000x1 S100000x256 [1] [0] [] [0] [] 1 ![1, 256]
  dot_S100000x256_S256x64_S100000x64_1_0_0_1_n_n_wf : DotDims.WF S100000x256 S256x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x256_S64x256_1_0_0_1_n_n_wf : DotDims.WF S64x64 S64x256 S64x256 [1] [0] [0] [1] [] []
  gather_S10000x256_S64x1_S64x256_1_0_n_n_0_1_1256_wf : GatherDims.WF S10000x256 S64x1 S64x256 [1] [0] [] [0] [] 1 ![1, 256]
  dot_S64x768_S768x64_S64x64_1_0_0_1_n_n_wf : DotDims.WF S64x768 S768x64 S64x64 [1] [0] [0] [1] [] []
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []

variable [Facts₀]

def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def gather_S10000x256_S64x1_S64x256_1_0_n_n_0_1_1256 : GatherDims S10000x256 S64x1 S64x256 where
  offsetDims := [1]
  collapsedSliceDims := [0]
  operandBatchingDims := []
  startIndicesBatchingDims := []
  startIndexMap := [0]
  indexVectorDim := 1
  sliceSizes := ![1, 256]
  wf := gather_S10000x256_S64x1_S64x256_1_0_n_n_0_1_1256_wf
def dot_S64x768_S768x64_S64x64_1_0_0_1_n_n : DotDims S64x768 S768x64 S64x64 where
  lhsContracting := [1]
  rhsContracting := [0]
  lhsNonContracting := [0]
  rhsNonContracting := [1]
  lhsBatch := []
  rhsBatch := []
  wf := dot_S64x768_S768x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.OutRun.lean ====
import proofs.«112995_j35948876268151_1_alg».proof.Proof.Gen.KernelIdeal.Frame

/-!
# The idealized kernel program's run, with its result named

The program runs three tiled regions among stretches of host operations. Every weakly fair execution terminates
without a fault; when it does, each unscoped buffer holds what the last boundary's contents say. Here that fact is
kept for the RESULT buffer as well as for the arguments: the result ends holding the last boundary's contents at its
own reference, and every argument ends as launched.
-/

set_option maxRecDepth 16384

noncomputable section

namespace Cert.KernelIdeal.OutRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the last segment boundary assigns to it and the argument arrays as launched. -/
theorem run_out : θ_run defs (onTc (τ := τ) (main (F := F))) ⟨m, fun _ => 0, ρ⟩ (fun r => ∀ c : Dev nD,
      r.2.mem ((c.tc : Thread nD τ).loc main_v134) = W7 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v134 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c)⟩)

end Cert.KernelIdeal.OutRun

end
-- ==== Proof.HeadSpec.lean ====
import proofs.«112995_j35948876268151_1_alg».proof.Proof.Gen.ReferenceIdeal

/-!
# The three-layer head as one function of its inputs

The last stage of the network takes the pooled graph features `p` (one row of 64 numbers per graph), the two
embedding rows `x1`, `x2` of each graph's state, and four weight matrices with their biases, and returns

  `relu (relu ([x1 | x2 | p · Wfc + bfc] · Wfc1 + bfc1) · Wfc2 + bfc2) · Wfc3 + bfc3`,

where `[· | · | ·]` joins three 64 × 256 blocks along the columns into 64 × 768, a bias is laid along every row,
and `relu` is the maximum with zero. It is written here with the reference program's own operations, as a function
of `p`, `x1`, `x2` (whatever computed them) and the weights.
-/

noncomputable section

namespace Cert.HeadSpec

open Cert.ReferenceIdeal Cert.ReferenceIdeal.Gen Idealize.ShloMosaic

variable {F : FTy → Type} [FloatOps F]

/-- The head: three affine layers, the first fed by the join of `x1`, `x2` and the projected pooled features,
    with a maximum against zero after the first two. -/
def headR (p : FVec F S64x64 .f32) (x1 x2 : FVec F S64x256 .f32)
    (wfc : FVec F S64x256 .f32) (bfc : FVec F S256 .f32) (wfc1 : FVec F S768x64 .f32) (bfc1 : FVec F S64 .f32)
    (wfc2 : FVec F S64x64 .f32) (bfc2 : FVec F S64 .f32) (wfc3 : FVec F S64x32 .f32) (bfc3 : FVec F S32 .f32) :
    FVec F S64x32 .f32 :=
  addf (Host.dotGeneral dot_S64x64_S64x32_S64x32_1_0_0_1_n_n none
      (maximumf (addf (Host.dotGeneral dot_S64x64_S64x64_S64x64_1_0_0_1_n_n none
          (maximumf (addf (Host.dotGeneral dot_S64x768_S768x64_S64x64_1_0_0_1_n_n none
              (concatenate S64x768 1 [⟨S64x256, x1⟩, ⟨S64x256, x2⟩,
                ⟨S64x256, addf (Host.dotGeneral dot_S64x64_S64x256_S64x256_1_0_0_1_n_n none p wfc)
                  (broadcastInDim S64x256 ![0, 1] bcast_S1x256_S64x256_0_1 (broadcastInDim S1x256 ![1] bcast_S256_S1x256_1 bfc))⟩]
                concatenates_S64x256_S64x256_S64x256_S64x768_d1) wfc1)
            (broadcastInDim S64x64 ![0, 1] bcast_S1x64_S64x64_0_1 (broadcastInDim S1x64 ![1] bcast_S64_S1x64_1 bfc1)))
            (broadcastInDim S64x64 ![] bcast_S_S64x64 (constant S_ .f32 0x00000000#32))) wfc2)
        (broadcastInDim S64x64 ![0, 1] bcast_S1x64_S64x64_0_1 (broadcastInDim S1x64 ![1] bcast_S64_S1x64_1 bfc2)))
        (broadcastInDim S64x64 ![] bcast_S_S64x64 (constant S_ .f32 0x00000000#32))) wfc3)
    (broadcastInDim S64x32 ![0, 1] bcast_S1x32_S64x32_0_1 (broadcastInDim S1x32 ![1] bcast_S32_S1x32_1 bfc3))

end Cert.HeadSpec

end
-- ==== Proof.Stages.lean ====
import proofs.«112995_j35948876268151_1_alg».proof.Proof.Gen.KernelIdeal.Launch
import proofs.«112995_j35948876268151_1_alg».proof.Proof.Gen.ReferenceIdeal.Read
import proofs.«112995_j35948876268151_1_alg».proof.Proof.HeadSpec

/-!
# The kernel program's host stretches compute the reference's stages

Between its three tiled regions the kernel program runs the same host operations as the reference: the split of the
edge list into sources and targets, the embedding gathers, the two normalized neighbourhood sums (degree by a
scatter-add of the edge weights, `rsqrt`, the per-edge coefficient, a gather of the projected features, a
scatter-add into the targets, the self-loop term and the bias), the maximum against zero, and the mean over each
graph. Each stretch is read here from ANY contents `V` of the buffers it starts from: what it leaves in a buffer is
the stretch's operations applied to what `V` holds at the buffers they read. When those buffers hold the reference's
stage values of the launch contents `V0` of the arguments, the result is the reference's next stage value of the same
arguments — the same operations on the same operands, so the two terms agree by unfolding the stage definitions.
A buffer no operation of a stretch writes keeps its contents: the arguments, and the source and target lists.
-/

set_option maxRecDepth 16384
-- a stretch of ninety operations is read in one pass
set_option maxHeartbeats 40000000

noncomputable section

namespace Cert.Bridge

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- What every boundary between segments keeps: the arguments that later segments read hold their launch contents
    (`V0`), and the source and target lists hold the two rows of the edge list. -/
structure Carried (V0 V : Valuation τ sig (Elt F)) : Prop where
  a0 : V (Proc.devRef .tc main_arg0) = V0 (Proc.devRef .tc main_arg0)
  a3 : V (Proc.devRef .tc main_arg3) = V0 (Proc.devRef .tc main_arg3)
  a4 : V (Proc.devRef .tc main_arg4) = V0 (Proc.devRef .tc main_arg4)
  a5 : V (Proc.devRef .tc main_arg5) = V0 (Proc.devRef .tc main_arg5)
  a7 : V (Proc.devRef .tc main_arg7) = V0 (Proc.devRef .tc main_arg7)
  a8 : V (Proc.devRef .tc main_arg8) = V0 (Proc.devRef .tc main_arg8)
  a9 : V (Proc.devRef .tc main_arg9) = V0 (Proc.devRef .tc main_arg9)
  a10 : V (Proc.devRef .tc main_arg10) = V0 (Proc.devRef .tc main_arg10)
  a11 : V (Proc.devRef .tc main_arg11) = V0 (Proc.devRef .tc main_arg11)
  a12 : V (Proc.devRef .tc main_arg12) = V0 (Proc.devRef .tc main_arg12)
  a13 : V (Proc.devRef .tc main_arg13) = V0 (Proc.devRef .tc main_arg13)
  a14 : V (Proc.devRef .tc main_arg14) = V0 (Proc.devRef .tc main_arg14)
  a15 : V (Proc.devRef .tc main_arg15) = V0 (Proc.devRef .tc main_arg15)
  a16 : V (Proc.devRef .tc main_arg16) = V0 (Proc.devRef .tc main_arg16)
  a17 : V (Proc.devRef .tc main_arg17) = V0 (Proc.devRef .tc main_arg17)
  v1 : V (Proc.devRef .tc main_v1) = val_main_v1 (F := F) (V0 (Proc.devRef .tc main_arg2))
  v3 : V (Proc.devRef .tc main_v3) = val_main_v3 (F := F) (V0 (Proc.devRef .tc main_arg2))

/-- The first stretch leaves the kept buffers as launched and writes the two rows of the edge list. -/
theorem carried_first (V0 : Valuation τ sig (Elt F)) : Carried V0 (StableHlo.after (hostOps0 (F := F)) V0) where
  a0 := by after_results_simp
  a3 := by after_results_simp
  a4 := by after_results_simp
  a5 := by after_results_simp
  a7 := by after_results_simp
  a8 := by after_results_simp
  a9 := by after_results_simp
  a10 := by after_results_simp
  a11 := by after_results_simp
  a12 := by after_results_simp
  a13 := by after_results_simp
  a14 := by after_results_simp
  a15 := by after_results_simp
  a16 := by after_results_simp
  a17 := by after_results_simp
  v1 := by after_results_simp; rfl
  v3 := by after_results_simp; rfl

/-- The first stretch gathers the embedding row of every node: the reference's stage 10. -/
theorem first_rows (V0 : Valuation τ sig (Elt F)) :
    StableHlo.after (hostOps0 (F := F)) V0 (Proc.devRef .tc main_v10) = val_main_v10 (F := F) (V0 (Proc.devRef .tc main_arg1)) (V0 (Proc.devRef .tc main_arg5)) := by
  after_results_simp; rfl

/-- The first stretch does not write the first layer's weights. -/
theorem first_weights (V0 : Valuation τ sig (Elt F)) :
    StableHlo.after (hostOps0 (F := F)) V0 (Proc.devRef .tc main_arg6) = V0 (Proc.devRef .tc main_arg6) := by
  after_results_simp

variable {V0 V : Valuation τ sig (Elt F)}

/-- The second stretch (the first layer's aggregation) writes none of the kept buffers. -/
theorem Carried.second (h : Carried V0 V) : Carried V0 (StableHlo.after (hostOps1 (F := F)) V) where
  a0 := (show StableHlo.after (hostOps1 (F := F)) V (Proc.devRef .tc main_arg0) = V (Proc.devRef .tc main_arg0) by after_results_simp).trans h.a0
  a3 := (show StableHlo.after (hostOps1 (F := F)) V (Proc.devRef .tc main_arg3) = V (Proc.devRef .tc main_arg3) by after_results_simp).trans h.a3
  a4 := (show StableHlo.after (hostOps1 (F := F)) V (Proc.devRef .tc main_arg4) = V (Proc.devRef .tc main_arg4) by after_results_simp).trans h.a4
  a5 := (show StableHlo.after (hostOps1 (F := F)) V (Proc.devRef .tc main_arg5) = V (Proc.devRef .tc main_arg5) by after_results_simp).trans h.a5
  a7 := (show StableHlo.after (hostOps1 (F := F)) V (Proc.devRef .tc main_arg7) = V (Proc.devRef .tc main_arg7) by after_results_simp).trans h.a7
  a8 := (show StableHlo.after (hostOps1 (F := F)) V (Proc.devRef .tc main_arg8) = V (Proc.devRef .tc main_arg8) by after_results_simp).trans h.a8
  a9 := (show StableHlo.after (hostOps1 (F := F)) V (Proc.devRef .tc main_arg9) = V (Proc.devRef .tc main_arg9) by after_results_simp).trans h.a9
  a10 := (show StableHlo.after (hostOps1 (F := F)) V (Proc.devRef .tc main_arg10) = V (Proc.devRef .tc main_arg10) by after_results_simp).trans h.a10
  a11 := (show StableHlo.after (hostOps1 (F := F)) V (Proc.devRef .tc main_arg11) = V (Proc.devRef .tc main_arg11) by after_results_simp).trans h.a11
  a12 := (show StableHlo.after (hostOps1 (F := F)) V (Proc.devRef .tc main_arg12) = V (Proc.devRef .tc main_arg12) by after_results_simp).trans h.a12
  a13 := (show StableHlo.after (hostOps1 (F := F)) V (Proc.devRef .tc main_arg13) = V (Proc.devRef .tc main_arg13) by after_results_simp).trans h.a13
  a14 := (show StableHlo.after (hostOps1 (F := F)) V (Proc.devRef .tc main_arg14) = V (Proc.devRef .tc main_arg14) by after_results_simp).trans h.a14
  a15 := (show StableHlo.after (hostOps1 (F := F)) V (Proc.devRef .tc main_arg15) = V (Proc.devRef .tc main_arg15) by after_results_simp).trans h.a15
  a16 := (show StableHlo.after (hostOps1 (F := F)) V (Proc.devRef .tc main_arg16) = V (Proc.devRef .tc main_arg16) by after_results_simp).trans h.a16
  a17 := (show StableHlo.after (hostOps1 (F := F)) V (Proc.devRef .tc main_arg17) = V (Proc.devRef .tc main_arg17) by after_results_simp).trans h.a17
  v1 := (show StableHlo.after (hostOps1 (F := F)) V (Proc.devRef .tc main_v1) = V (Proc.devRef .tc main_v1) by after_results_simp).trans h.v1
  v3 := (show StableHlo.after (hostOps1 (F := F)) V (Proc.devRef .tc main_v3) = V (Proc.devRef .tc main_v3) by after_results_simp).trans h.v3

/-- Nor do the three operations of the maximum against zero. -/
theorem Carried.relu (h : Carried V0 V) : Carried V0 (StableHlo.after (hostOps1_1 (F := F)) V) where
  a0 := (show StableHlo.after (hostOps1_1 (F := F)) V (Proc.devRef .tc main_arg0) = V (Proc.devRef .tc main_arg0) by after_results_simp).trans h.a0
  a3 := (show StableHlo.after (hostOps1_1 (F := F)) V (Proc.devRef .tc main_arg3) = V (Proc.devRef .tc main_arg3) by after_results_simp).trans h.a3
  a4 := (show StableHlo.after (hostOps1_1 (F := F)) V (Proc.devRef .tc main_arg4) = V (Proc.devRef .tc main_arg4) by after_results_simp).trans h.a4
  a5 := (show StableHlo.after (hostOps1_1 (F := F)) V (Proc.devRef .tc main_arg5) = V (Proc.devRef .tc main_arg5) by after_results_simp).trans h.a5
  a7 := (show StableHlo.after (hostOps1_1 (F := F)) V (Proc.devRef .tc main_arg7) = V (Proc.devRef .tc main_arg7) by after_results_simp).trans h.a7
  a8 := (show StableHlo.after (hostOps1_1 (F := F)) V (Proc.devRef .tc main_arg8) = V (Proc.devRef .tc main_arg8) by after_results_simp).trans h.a8
  a9 := (show StableHlo.after (hostOps1_1 (F := F)) V (Proc.devRef .tc main_arg9) = V (Proc.devRef .tc main_arg9) by after_results_simp).trans h.a9
  a10 := (show StableHlo.after (hostOps1_1 (F := F)) V (Proc.devRef .tc main_arg10) = V (Proc.devRef .tc main_arg10) by after_results_simp).trans h.a10
  a11 := (show StableHlo.after (hostOps1_1 (F := F)) V (Proc.devRef .tc main_arg11) = V (Proc.devRef .tc main_arg11) by after_results_simp).trans h.a11
  a12 := (show StableHlo.after (hostOps1_1 (F := F)) V (Proc.devRef .tc main_arg12) = V (Proc.devRef .tc main_arg12) by after_results_simp).trans h.a12
  a13 := (show StableHlo.after (hostOps1_1 (F := F)) V (Proc.devRef .tc main_arg13) = V (Proc.devRef .tc main_arg13) by after_results_simp).trans h.a13
  a14 := (show StableHlo.after (hostOps1_1 (F := F)) V (Proc.devRef .tc main_arg14) = V (Proc.devRef .tc main_arg14) by after_results_simp).trans h.a14
  a15 := (show StableHlo.after (hostOps1_1 (F := F)) V (Proc.devRef .tc main_arg15) = V (Proc.devRef .tc main_arg15) by after_results_simp).trans h.a15
  a16 := (show StableHlo.after (hostOps1_1 (F := F)) V (Proc.devRef .tc main_arg16) = V (Proc.devRef .tc main_arg16) by after_results_simp).trans h.a16
  a17 := (show StableHlo.after (hostOps1_1 (F := F)) V (Proc.devRef .tc main_arg17) = V (Proc.devRef .tc main_arg17) by after_results_simp).trans h.a17
  v1 := (show StableHlo.after (hostOps1_1 (F := F)) V (Proc.devRef .tc main_v1) = V (Proc.devRef .tc main_v1) by after_results_simp).trans h.v1
  v3 := (show StableHlo.after (hostOps1_1 (F := F)) V (Proc.devRef .tc main_v3) = V (Proc.devRef .tc main_v3) by after_results_simp).trans h.v3

/-- Nor does the third stretch (the second layer's aggregation, the pooling, the state rows, the bias reshapes). -/
theorem Carried.third (h : Carried V0 V) : Carried V0 (StableHlo.after (hostOps2 (F := F)) V) where
  a0 := (show StableHlo.after (hostOps2 (F := F)) V (Proc.devRef .tc main_arg0) = V (Proc.devRef .tc main_arg0) by after_results_simp).trans h.a0
  a3 := (show StableHlo.after (hostOps2 (F := F)) V (Proc.devRef .tc main_arg3) = V (Proc.devRef .tc main_arg3) by after_results_simp).trans h.a3
  a4 := (show StableHlo.after (hostOps2 (F := F)) V (Proc.devRef .tc main_arg4) = V (Proc.devRef .tc main_arg4) by after_results_simp).trans h.a4
  a5 := (show StableHlo.after (hostOps2 (F := F)) V (Proc.devRef .tc main_arg5) = V (Proc.devRef .tc main_arg5) by after_results_simp).trans h.a5
  a7 := (show StableHlo.after (hostOps2 (F := F)) V (Proc.devRef .tc main_arg7) = V (Proc.devRef .tc main_arg7) by after_results_simp).trans h.a7
  a8 := (show StableHlo.after (hostOps2 (F := F)) V (Proc.devRef .tc main_arg8) = V (Proc.devRef .tc main_arg8) by after_results_simp).trans h.a8
  a9 := (show StableHlo.after (hostOps2 (F := F)) V (Proc.devRef .tc main_arg9) = V (Proc.devRef .tc main_arg9) by after_results_simp).trans h.a9
  a10 := (show StableHlo.after (hostOps2 (F := F)) V (Proc.devRef .tc main_arg10) = V (Proc.devRef .tc main_arg10) by after_results_simp).trans h.a10
  a11 := (show StableHlo.after (hostOps2 (F := F)) V (Proc.devRef .tc main_arg11) = V (Proc.devRef .tc main_arg11) by after_results_simp).trans h.a11
  a12 := (show StableHlo.after (hostOps2 (F := F)) V (Proc.devRef .tc main_arg12) = V (Proc.devRef .tc main_arg12) by after_results_simp).trans h.a12
  a13 := (show StableHlo.after (hostOps2 (F := F)) V (Proc.devRef .tc main_arg13) = V (Proc.devRef .tc main_arg13) by after_results_simp).trans h.a13
  a14 := (show StableHlo.after (hostOps2 (F := F)) V (Proc.devRef .tc main_arg14) = V (Proc.devRef .tc main_arg14) by after_results_simp).trans h.a14
  a15 := (show StableHlo.after (hostOps2 (F := F)) V (Proc.devRef .tc main_arg15) = V (Proc.devRef .tc main_arg15) by after_results_simp).trans h.a15
  a16 := (show StableHlo.after (hostOps2 (F := F)) V (Proc.devRef .tc main_arg16) = V (Proc.devRef .tc main_arg16) by after_results_simp).trans h.a16
  a17 := (show StableHlo.after (hostOps2 (F := F)) V (Proc.devRef .tc main_arg17) = V (Proc.devRef .tc main_arg17) by after_results_simp).trans h.a17
  v1 := (show StableHlo.after (hostOps2 (F := F)) V (Proc.devRef .tc main_v1) = V (Proc.devRef .tc main_v1) by after_results_simp).trans h.v1
  v3 := (show StableHlo.after (hostOps2 (F := F)) V (Proc.devRef .tc main_v3) = V (Proc.devRef .tc main_v3) by after_results_simp).trans h.v3

/-- From the first layer's projected features (the reference's stage 11) the second stretch and the maximum against
    zero compute the reference's stage 55: the first layer's output after `relu`. -/
theorem second_layer_in (h : Carried V0 V)
    (h11 : V (Proc.devRef .tc main_v11) = val_main_v11 (F := F) (V0 (Proc.devRef .tc main_arg1)) (V0 (Proc.devRef .tc main_arg5)) (V0 (Proc.devRef .tc main_arg6))) :
    StableHlo.after (hostOps1_1 (F := F)) (StableHlo.after (hostOps1 (F := F)) V) (Proc.devRef .tc main_v55)
      = val_main_v55 (F := F) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) := by
  after_results_simp
  rw [h11, h.v1, h.v3, h.a3, h.a7]
  rfl

/-- From the second layer's projected features (the reference's stage 56) the third stretch computes the mean of the
    second layer's output over each graph: the reference's stage 111. -/
theorem third_pooled (h : Carried V0 V)
    (h56 : V (Proc.devRef .tc main_v56) = val_main_v56 (F := F) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8))) :
    StableHlo.after (hostOps2 (F := F)) V (Proc.devRef .tc main_v111)
      = val_main_v111 (F := F) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  after_results_simp
  rw [h56, h.v1, h.v3, h.a3, h.a4, h.a9]
  rfl

/-- The third stretch gathers the embedding rows of each graph's first state entry: the reference's stage 124. -/
theorem third_state0 (h : Carried V0 V) :
    StableHlo.after (hostOps2 (F := F)) V (Proc.devRef .tc main_v120) = val_main_v124 (F := F) (V0 (Proc.devRef .tc main_arg0)) (V0 (Proc.devRef .tc main_arg5)) := by
  after_results_simp
  rw [h.a0, h.a5]
  rfl

/-- … and of its second state entry: the reference's stage 133. -/
theorem third_state1 (h : Carried V0 V) :
    StableHlo.after (hostOps2 (F := F)) V (Proc.devRef .tc main_v129) = val_main_v133 (F := F) (V0 (Proc.devRef .tc main_arg0)) (V0 (Proc.devRef .tc main_arg5)) := by
  after_results_simp
  rw [h.a0, h.a5]
  rfl

/-- The third stretch lays each bias out as a one-row matrix. -/
theorem third_bias0 (h : Carried V0 V) :
    StableHlo.after (hostOps2 (F := F)) V (Proc.devRef .tc main_v130) = shapeCast S1x256 (V0 (Proc.devRef .tc main_arg11)) shapeCasts_S256_S1x256 := by
  after_results_simp
  rw [h.a11]
  rfl
theorem third_bias1 (h : Carried V0 V) :
    StableHlo.after (hostOps2 (F := F)) V (Proc.devRef .tc main_v131) = shapeCast S1x64 (V0 (Proc.devRef .tc main_arg13)) shapeCasts_S64_S1x64 := by
  after_results_simp
  rw [h.a13]
  rfl
theorem third_bias2 (h : Carried V0 V) :
    StableHlo.after (hostOps2 (F := F)) V (Proc.devRef .tc main_v132) = shapeCast S1x64 (V0 (Proc.devRef .tc main_arg15)) shapeCasts_S64_S1x64 := by
  after_results_simp
  rw [h.a15]
  rfl
theorem third_bias3 (h : Carried V0 V) :
    StableHlo.after (hostOps2 (F := F)) V (Proc.devRef .tc main_v133) = shapeCast S1x32 (V0 (Proc.devRef .tc main_arg17)) shapeCasts_S32_S1x32 := by
  after_results_simp
  rw [h.a17]
  rfl

/-- The reference's result is its head applied to its pooled features, its two state rows and the weights. -/
theorem result_is_head (x0 : (⟨S64x2, .i32⟩ : BufTy).Contents (Elt F)) (x1 : (⟨S100000, .i32⟩ : BufTy).Contents (Elt F))
    (x2 : (⟨S2x1600000, .i32⟩ : BufTy).Contents (Elt F)) (x3 : (⟨S1600000, .f32⟩ : BufTy).Contents (Elt F))
    (x4 : (⟨S100000, .i32⟩ : BufTy).Contents (Elt F)) (x5 : (⟨S10000x256, .f32⟩ : BufTy).Contents (Elt F))
    (x6 : (⟨S256x64, .f32⟩ : BufTy).Contents (Elt F)) (x7 : (⟨S64, .f32⟩ : BufTy).Contents (Elt F))
    (x8 : (⟨S64x64, .f32⟩ : BufTy).Contents (Elt F)) (x9 : (⟨S64, .f32⟩ : BufTy).Contents (Elt F))
    (x10 : (⟨S64x256, .f32⟩ : BufTy).Contents (Elt F)) (x11 : (⟨S256, .f32⟩ : BufTy).Contents (Elt F))
    (x12 : (⟨S768x64, .f32⟩ : BufTy).Contents (Elt F)) (x13 : (⟨S64, .f32⟩ : BufTy).Contents (Elt F))
    (x14 : (⟨S64x64, .f32⟩ : BufTy).Contents (Elt F)) (x15 : (⟨S64, .f32⟩ : BufTy).Contents (Elt F))
    (x16 : (⟨S64x32, .f32⟩ : BufTy).Contents (Elt F)) (x17 : (⟨S32, .f32⟩ : BufTy).Contents (Elt F)) :
    val_main_v148 (F := F) x0 x1 x2 x3 x4 x5 x6 x7 x8 x9 x10 x11 x12 x13 x14 x15 x16 x17
      = Cert.HeadSpec.headR (F := F) (val_main_v111 (F := F) x1 x2 x3 x4 x5 x6 x7 x8 x9) (val_main_v124 (F := F) x0 x5)
          (val_main_v133 (F := F) x0 x5) x10 x11 x12 x13 x14 x15 x16 x17 := rfl

end Cert.Bridge

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.RowTiles.lean ====
import proofs.«112995_j35948876268151_1_alg».proof.Proof.Gen.KernelIdeal.Frame
import proofs.«112995_j35948876268151_1_alg».proof.Proof.LibPlainProduct
import Idealize.ShloMosaic.Lib.Pipeline.Value
import Idealize.ShloMosaic.Lib.ValueIdx
import Idealize.ShloMosaic.PureOps.Ideal.Laws

/-!
# Two row-tiled matrix products, read entry by entry over the extended reals

Each of the first two grids of this program multiplies a tall matrix by a small one, twenty tiles of
5000 rows at a time: at tile `t` the body takes rows `5000 t … 5000 t + 4999` of the left matrix and all of the right
matrix, rounds both to a narrower float format (the identity on extended reals), multiplies them into a zero
accumulator, and writes the 5000 × 64 product as rows `5000 t …` of the result. The twenty tiles partition the rows
of the result, so after the grid the result array is ONE function of the two input arrays: its entry `(a, b)` is the
sum over the contracted coordinate `k` of left `(a, k)` times right `(k, b)`. Everything is stated for arbitrary
contents `V` of the buffers when the grid is entered.
-/

set_option maxRecDepth 16384

noncomputable section

namespace Cert.KernelIdeal.RowTiles

open Cert.KernelIdeal Idealize.ShloMosaic Idealize.ShloMosaic.TcCoe Idealize.ShloMosaic.ValueIdx
open Idealize.ShloMosaic.Pipeline (Dat)

/-- The offsets `![0, 0]` of an access to a whole block are zero on both axes. -/
theorem hz : (![0, 0] : Fin 2 → Nat) = fun _ => 0 := funext fun a => by fin_cases a <;> rfl

/-! ## Region 0: rows of a 100000 × 256 matrix times a 256 × 64 matrix -/

/-- The product of the two matrices, entry by entry: the sum over the contracted coordinate. -/
def G0 (X : S100000x256.Idx → EReal) (W : S256x64.Idx → EReal) : S100000x64.Idx → EReal :=
  fun i => ∑ k : Fin 256, X (ix2 ⟨(i 0).val, (i 0).isLt⟩ k) * W (ix2 k ⟨(i 1).val, (i 1).isLt⟩)

/-- At the entry `(a, b)` the product is the sum over `k` of `X (a, k) * W (k, b)`. -/
theorem G0_at (X : S100000x256.Idx → EReal) (W : S256x64.Idx → EReal) (a : Fin 100000) (b : Fin 64) :
    G0 X W (ix2 a b) = ∑ k : Fin 256, X (ix2 a k) * W (ix2 k b) := rfl

/-- The body's contraction is the plain one: the left operand's columns against the right operand's rows, no batch axis. -/
theorem hd0 : dot_S5000x256_S256x64_S5000x64_1_0_0_1_n_n = DotDims.plain 5000 256 64 := rfl

/-- The body's arithmetic at an entry of the tile: both roundings are the identity, the accumulator is zero, so the
    entry is the sum over the contracted coordinate of the products of the loaded blocks' entries. -/
theorem pay0_at (x0 : Vec Ideal S5000x256 .f32) (x1 : Vec Ideal S256x64 .f32) (p : Fin 5000) (q : Fin 64) :
    Gen.k0_pay1 (F := Ideal) x0 x1 (ix2 p q) = ∑ k : Fin 256, x0 (ix2 p k) * x1 (ix2 k q) := by
  unfold Gen.k0_pay1
  refine (PlainProduct.matmul_at _ hd0 none _ _ _ p q).trans ?_
  rw [constant_apply, Ideal.ofBits_zero_f32, zero_add, shapeCast_self]
  rfl

/-- A tile of the product: when the left block is rows `5000 r …` of `X` and the right block is all of `W`, the body's
    result at `y` is the product's entry in row `5000 r + y 0`, column `y 1`. -/
theorem tile0_at (X : S100000x256.Idx → EReal) (W : S256x64.Idx → EReal)
    (x0 : Vec Ideal S5000x256 .f32) (x1 : Vec Ideal S256x64 .f32) (r : ℕ)
    (h0 : ∀ (x : S5000x256.Idx) (k : S100000x256.Idx), (k 0).val = r * 5000 + (x 0).val → (k 1).val = (x 1).val → x0 x = X k)
    (h1 : ∀ (x : S256x64.Idx) (k : S256x64.Idx), (k 0).val = (x 0).val → (k 1).val = (x 1).val → x1 x = W k)
    (y : S5000x64.Idx) (i : S100000x64.Idx) (hi0 : (i 0).val = r * 5000 + (y 0).val) (hi1 : (i 1).val = (y 1).val) :
    Gen.k0_pay1 (F := Ideal) x0 x1 y = G0 X W i := by
  obtain ⟨p, q, rfl⟩ : ∃ (p : Fin 5000) (q : Fin 64), y = ix2 p q := ⟨y 0, y 1, eq_ix2 y⟩
  obtain ⟨a, b, rfl⟩ : ∃ (a : Fin 100000) (b : Fin 64), i = ix2 a b := ⟨i 0, i 1, eq_ix2 i⟩
  rw [pay0_at, G0_at]
  refine Finset.sum_congr rfl fun k _ => ?_
  rw [h0 (ix2 p k) (ix2 a k) hi0 rfl, h1 (ix2 k q) (ix2 k b) rfl hi1]

/-- The windows' block indices at each of the 20 grid points: the left and the output window move down one block of rows
    per point, the right window stays on its only block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The left window's block at point `t` is rows `5000 t … 5000 t + 4999` of the left matrix. -/
theorem left0_apply (c : Dev nD) (t : Fin cfg0.N) (x : S5000x256.Idx) (k : S100000x256.Idx)
    (hk0 : (k 0).val = t.val * 5000 + (x 0).val) (hk1 : (k 1).val = (x 1).val) :
    (Gen.iblk0 V c 0 t : Vec Ideal S5000x256 .f32) x = (V c main_v10 : S100000x256.Idx → EReal) k := by
  obtain ⟨e0, e1, -⟩ := idx_facts0 t
  unfold Gen.iblk0
  rw [View.read_apply]
  show V c main_v10 _ = V c main_v10 _
  refine congrArg (V c main_v10) ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 256 + 1 * (x 1).val = (k 1).val; rw [e1, hk1]; omega

/-- The right window's block at every point is the whole right matrix. -/
theorem right0_apply (c : Dev nD) (t : Fin cfg0.N) (x : S256x64.Idx) (k : S256x64.Idx)
    (hk0 : (k 0).val = (x 0).val) (hk1 : (k 1).val = (x 1).val) :
    (Gen.iblk0 V c 1 t : Vec Ideal S256x64 .f32) x = (V c main_arg6 : S256x64.Idx → EReal) k := by
  obtain ⟨-, -, e0, e1, -⟩ := idx_facts0 t
  unfold Gen.iblk0
  rw [View.read_apply]
  show V c main_arg6 _ = V c main_arg6 _
  refine congrArg (V c main_arg6) ?_
  funext a
  apply Fin.ext
  match a with
  | ⟨0, _⟩ => show win0_1.index t (0 : Fin 2) * 256 + 1 * (x 0).val = (k 0).val; rw [e0, hk0]; omega
  | ⟨1, _⟩ => show win0_1.index t (1 : Fin 2) * 64 + 1 * (x 1).val = (k 1).val; rw [e1, hk1]; omega

/-- What point `t` writes back is block `t` of the product of the two matrices as the region finds them. -/
theorem flushed0_eq (c : Dev nD) (t : Fin cfg0.N) :
    (Gen.dat0 (F := Ideal) V c).flushed 2 t
      = ((cfg0.win 2).blk t).view.read (Elt Ideal) (G0 (V c main_v10) (V c main_arg6)) := by
  show (cfg0.win 2).cut (grid0.coords t) ((Gen.dat0 V c).after 2 t) = _
  rw [Gen.after0_2]
  unfold Gen.out0_2
  rw [View.canon_unit_zero hz]
  simp only [View.ld_unit_zero (S := S5000x256) hz, View.ld_unit_zero (S := S256x64) hz]
  obtain ⟨-, -, -, -, e0, e1⟩ := idx_facts0 t
  funext j
  show Gen.k0_pay1 (F := Ideal) (Gen.iblk0 V c 0 t) (Gen.iblk0 V c 1 t) j
    = G0 (V c main_v10) (V c main_arg6) (((cfg0.win 2).blk t).view.emb j)
  refine tile0_at (V c main_v10) (V c main_arg6) (Gen.iblk0 V c 0 t) (Gen.iblk0 V c 1 t) t.val
    (left0_apply V c t) (right0_apply V c t) j _ ?_ ?_
  · show win0_2.index t (0 : Fin 2) * 5000 + 1 * (j 0).val = t.val * 5000 + (j 0).val; rw [e0]; omega
  · show win0_2.index t (1 : Fin 2) * 64 + 1 * (j 1).val = (j 1).val; rw [e1]; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v11).slice (win0_2.rect t)).set ↔ _
  rw [View.set_slice_whole, Rect.mem_set_unit]
  exact Iff.rfl

/-- Every entry of the output array is in some point's block: row `r` is in block `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := Gen.N_0
  let t : Fin cfg0.N := ⟨(i 0).val / 5000, by rw [hN]; omega⟩
  obtain ⟨-, -, -, -, e0, e1⟩ := idx_facts0 t
  have ht : t.val = (i 0).val / 5000 := rfl
  refine ⟨t, Gen.flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 64 ≤ (i 1).val ∧ (i 1).val < win0_2.index t (1 : Fin 2) * 64 + 64; rw [e1]; omega

/-- After region 0 the output array is the product of the two matrices as the region found them. -/
theorem region0 (c : Dev nD) :
    (Gen.dat0 (F := Ideal) V c).arrAt 2 cfg0.N = G0 (V c main_v10) (V c main_arg6) :=
  (Gen.dat0 (F := Ideal) V c).arrAt_eq_of_cover 2 (G0 (V c main_v10) (V c main_arg6))
    (fun t _ => flushed0_eq V c t) cover0

/-- After region 0 the output array at `(a, b)` is the sum over `k` of left `(a, k)` times right `(k, b)`, for the
    two input arrays under any names. -/
theorem region0_at_of (c : Dev nD) (X : S100000x256.Idx → EReal) (W : S256x64.Idx → EReal)
    (hX : V c main_v10 = X) (hW : V c main_arg6 = W) (a : Fin 100000) (b : Fin 64) :
    ((Gen.dat0 (F := Ideal) V c).arrAt 2 cfg0.N : S100000x64.Idx → EReal) (ix2 a b)
      = ∑ k : Fin 256, X (ix2 a k) * W (ix2 k b) := by
  subst hX hW
  rw [region0 V c]
  exact G0_at _ _ a b

/-- The same with the two input arrays named as the region finds them (`V c main_v10`, `V c main_arg6`), each read
    as a function into the extended reals. -/
theorem region0_at (c : Dev nD) (a : Fin 100000) (b : Fin 64) :
    (Gen.dat0 (F := Ideal) V c).arrAt 2 cfg0.N (ix2 a b)
      = ∑ k : Fin 256, HMul.hMul (α := EReal) (β := EReal) (γ := EReal) ((V c main_v10 : S100000x256.Idx → EReal) (ix2 a k)) ((V c main_arg6 : S256x64.Idx → EReal) (ix2 k b)) :=
  region0_at_of V c _ _ rfl rfl a b

end

/-! ## Region 1: rows of a 100000 × 64 matrix times a 64 × 64 matrix -/

/-- The product of the two matrices, entry by entry: the sum over the contracted coordinate. -/
def G1 (X : S100000x64.Idx → EReal) (W : S64x64.Idx → EReal) : S100000x64.Idx → EReal :=
  fun i => ∑ k : Fin 64, X (ix2 ⟨(i 0).val, (i 0).isLt⟩ k) * W (ix2 k ⟨(i 1).val, (i 1).isLt⟩)

/-- At the entry `(a, b)` the product is the sum over `k` of `X (a, k) * W (k, b)`. -/
theorem G1_at (X : S100000x64.Idx → EReal) (W : S64x64.Idx → EReal) (a : Fin 100000) (b : Fin 64) :
    G1 X W (ix2 a b) = ∑ k : Fin 64, X (ix2 a k) * W (ix2 k b) := rfl

/-- The body's contraction is the plain one: the left operand's columns against the right operand's rows, no batch axis. -/
theorem hd1 : dot_S5000x64_S64x64_S5000x64_1_0_0_1_n_n = DotDims.plain 5000 64 64 := rfl

/-- The body's arithmetic at an entry of the tile: both roundings are the identity, the accumulator is zero, so the
    entry is the sum over the contracted coordinate of the products of the loaded blocks' entries. -/
theorem pay1_at (x0 : Vec Ideal S5000x64 .f32) (x1 : Vec Ideal S64x64 .f32) (p : Fin 5000) (q : Fin 64) :
    Gen.k1_pay1 (F := Ideal) x0 x1 (ix2 p q) = ∑ k : Fin 64, x0 (ix2 p k) * x1 (ix2 k q) := by
  unfold Gen.k1_pay1
  refine (PlainProduct.matmul_at _ hd1 none _ _ _ p q).trans ?_
  rw [constant_apply, Ideal.ofBits_zero_f32, zero_add, shapeCast_self]
  rfl

/-- A tile of the product: when the left block is rows `5000 r …` of `X` and the right block is all of `W`, the body's
    result at `y` is the product's entry in row `5000 r + y 0`, column `y 1`. -/
theorem tile1_at (X : S100000x64.Idx → EReal) (W : S64x64.Idx → EReal)
    (x0 : Vec Ideal S5000x64 .f32) (x1 : Vec Ideal S64x64 .f32) (r : ℕ)
    (h0 : ∀ (x : S5000x64.Idx) (k : S100000x64.Idx), (k 0).val = r * 5000 + (x 0).val → (k 1).val = (x 1).val → x0 x = X k)
    (h1 : ∀ (x : S64x64.Idx) (k : S64x64.Idx), (k 0).val = (x 0).val → (k 1).val = (x 1).val → x1 x = W k)
    (y : S5000x64.Idx) (i : S100000x64.Idx) (hi0 : (i 0).val = r * 5000 + (y 0).val) (hi1 : (i 1).val = (y 1).val) :
    Gen.k1_pay1 (F := Ideal) x0 x1 y = G1 X W i := by
  obtain ⟨p, q, rfl⟩ : ∃ (p : Fin 5000) (q : Fin 64), y = ix2 p q := ⟨y 0, y 1, eq_ix2 y⟩
  obtain ⟨a, b, rfl⟩ : ∃ (a : Fin 100000) (b : Fin 64), i = ix2 a b := ⟨i 0, i 1, eq_ix2 i⟩
  rw [pay1_at, G1_at]
  refine Finset.sum_congr rfl fun k _ => ?_
  rw [h0 (ix2 p k) (ix2 a k) hi0 rfl, h1 (ix2 k q) (ix2 k b) rfl hi1]

/-- The windows' block indices at each of the 20 grid points: the left and the output window move down one block of rows
    per point, the right window stays on its only block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The left window's block at point `t` is rows `5000 t … 5000 t + 4999` of the left matrix. -/
theorem left1_apply (c : Dev nD) (t : Fin cfg1.N) (x : S5000x64.Idx) (k : S100000x64.Idx)
    (hk0 : (k 0).val = t.val * 5000 + (x 0).val) (hk1 : (k 1).val = (x 1).val) :
    (Gen.iblk1 V c 0 t : Vec Ideal S5000x64 .f32) x = (V c main_v55 : S100000x64.Idx → EReal) k := by
  obtain ⟨e0, e1, -⟩ := idx_facts1 t
  unfold Gen.iblk1
  rw [View.read_apply]
  show V c main_v55 _ = V c main_v55 _
  refine congrArg (V c main_v55) ?_
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- The right window's block at every point is the whole right matrix. -/
theorem right1_apply (c : Dev nD) (t : Fin cfg1.N) (x : S64x64.Idx) (k : S64x64.Idx)
    (hk0 : (k 0).val = (x 0).val) (hk1 : (k 1).val = (x 1).val) :
    (Gen.iblk1 V c 1 t : Vec Ideal S64x64 .f32) x = (V c main_arg8 : S64x64.Idx → EReal) k := by
  obtain ⟨-, -, e0, e1, -⟩ := idx_facts1 t
  unfold Gen.iblk1
  rw [View.read_apply]
  show V c main_arg8 _ = V c main_arg8 _
  refine congrArg (V c main_arg8) ?_
  funext a
  apply Fin.ext
  match a with
  | ⟨0, _⟩ => show win1_1.index t (0 : Fin 2) * 64 + 1 * (x 0).val = (k 0).val; rw [e0, hk0]; omega
  | ⟨1, _⟩ => show win1_1.index t (1 : Fin 2) * 64 + 1 * (x 1).val = (k 1).val; rw [e1, hk1]; omega

/-- What point `t` writes back is block `t` of the product of the two matrices as the region finds them. -/
theorem flushed1_eq (c : Dev nD) (t : Fin cfg1.N) :
    (Gen.dat1 (F := Ideal) V c).flushed 2 t
      = ((cfg1.win 2).blk t).view.read (Elt Ideal) (G1 (V c main_v55) (V c main_arg8)) := by
  show (cfg1.win 2).cut (grid1.coords t) ((Gen.dat1 V c).after 2 t) = _
  rw [Gen.after1_2]
  unfold Gen.out1_2
  rw [View.canon_unit_zero hz]
  simp only [View.ld_unit_zero (S := S5000x64) hz, View.ld_unit_zero (S := S64x64) hz]
  obtain ⟨-, -, -, -, e0, e1⟩ := idx_facts1 t
  funext j
  show Gen.k1_pay1 (F := Ideal) (Gen.iblk1 V c 0 t) (Gen.iblk1 V c 1 t) j
    = G1 (V c main_v55) (V c main_arg8) (((cfg1.win 2).blk t).view.emb j)
  refine tile1_at (V c main_v55) (V c main_arg8) (Gen.iblk1 V c 0 t) (Gen.iblk1 V c 1 t) t.val
    (left1_apply V c t) (right1_apply V c t) j _ ?_ ?_
  · show win1_2.index t (0 : Fin 2) * 5000 + 1 * (j 0).val = t.val * 5000 + (j 0).val; rw [e0]; omega
  · show win1_2.index t (1 : Fin 2) * 64 + 1 * (j 1).val = (j 1).val; rw [e1]; omega

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v56).slice (win1_2.rect t)).set ↔ _
  rw [View.set_slice_whole, Rect.mem_set_unit]
  exact Iff.rfl

/-- Every entry of the output array is in some point's block: row `r` is in block `r / 5000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := Gen.N_1
  let t : Fin cfg1.N := ⟨(i 0).val / 5000, by rw [hN]; omega⟩
  obtain ⟨-, -, -, -, e0, e1⟩ := idx_facts1 t
  have ht : t.val = (i 0).val / 5000 := rfl
  refine ⟨t, Gen.flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 64 ≤ (i 1).val ∧ (i 1).val < win1_2.index t (1 : Fin 2) * 64 + 64; rw [e1]; omega

/-- After region 1 the output array is the product of the two matrices as the region found them. -/
theorem region1 (c : Dev nD) :
    (Gen.dat1 (F := Ideal) V c).arrAt 2 cfg1.N = G1 (V c main_v55) (V c main_arg8) :=
  (Gen.dat1 (F := Ideal) V c).arrAt_eq_of_cover 2 (G1 (V c main_v55) (V c main_arg8))
    (fun t _ => flushed1_eq V c t) cover1

/-- After region 1 the output array at `(a, b)` is the sum over `k` of left `(a, k)` times right `(k, b)`, for the
    two input arrays under any names. -/
theorem region1_at_of (c : Dev nD) (X : S100000x64.Idx → EReal) (W : S64x64.Idx → EReal)
    (hX : V c main_v55 = X) (hW : V c main_arg8 = W) (a : Fin 100000) (b : Fin 64) :
    ((Gen.dat1 (F := Ideal) V c).arrAt 2 cfg1.N : S100000x64.Idx → EReal) (ix2 a b)
      = ∑ k : Fin 64, X (ix2 a k) * W (ix2 k b) := by
  subst hX hW
  rw [region1 V c]
  exact G1_at _ _ a b

/-- The same with the two input arrays named as the region finds them (`V c main_v55`, `V c main_arg8`), each read
    as a function into the extended reals. -/
theorem region1_at (c : Dev nD) (a : Fin 100000) (b : Fin 64) :
    (Gen.dat1 (F := Ideal) V c).arrAt 2 cfg1.N (ix2 a b)
      = ∑ k : Fin 64, HMul.hMul (α := EReal) (β := EReal) (γ := EReal) ((V c main_v55 : S100000x64.Idx → EReal) (ix2 a k)) ((V c main_arg8 : S64x64.Idx → EReal) (ix2 k b)) :=
  region1_at_of V c _ _ rfl rfl a b

end

end Cert.KernelIdeal.RowTiles

end
-- ==== Proof.LibNarrowedProduct.lean ====
import Idealize.ShloMosaic.Lib.KernelVsHost
import Idealize.ShloMosaic.Lib.ValueLayout
import Idealize.ShloMosaic.Lib.Pipeline.Value

/-!
# A narrowed product into a zero accumulator, and a one-row bias repeated down the rows, over the extended reals

Two array-level laws that let an affine layer written for a matrix unit be rewritten, as whole arrays, into the same
layer written with host operations.

* `NarrowedProduct.matmul_narrowed_eq_dot`: a kernel's matrix product of two operands first narrowed to a sixteen-bit
  float format, accumulated into the zero matrix, is the host's `dot_general` of the un-narrowed operands, for ANY shapes
  and ANY pair of dimension records that are the same record (the hypothesis is usually `rfl`). Over the extended reals
  narrowing is the identity and `0 + s = s`.
* `NarrowedProduct.bias_rows`: a bias vector of `n` entries given in one-row form `[1, n]` (a cast of the vector, then a
  cast between equal shapes) and repeated down `m` rows by a vector broadcast is the vector placed on axis 1 of
  `[1, n]` and that row repeated down axis 0 by two `broadcast_in_dim`s. Both read the vector at the column.
-/

namespace NarrowedProduct

open Idealize.ShloMosaic Idealize.ShloMosaic.ValueIdx

/-- A product of two matrices whose entries were first narrowed to a shorter float format, accumulated into the zero
    matrix, is the plain product of the two matrices: over the extended reals narrowing changes nothing, and
    `0 + s = s`. The two dimension records may be spelt apart as long as they are the same record. -/
theorem matmul_narrowed_eq_dot {sl sr so : Shape} (dK dR : DotDims sl sr so) (hd : dK = dR)
    (X : FVec Ideal sl .f32) (W : FVec Ideal sr .f32) (h : FTy.bits .bf16 < FTy.bits .f32) (h' : FTy.bits .bf16 < FTy.bits .f32) :
    matmul dK none (truncf .bf16 X h) (truncf .bf16 W h') (constant (F := Ideal) so .f32 0x00000000#32)
      = Host.dotGeneral (F := Ideal) dR none X W := by
  subst hd
  funext j
  show FloatOps.matmul dK none _ _ _ j = FloatOps.dotGeneral dK none _ X W j
  rw [Ideal.matmul_constant_zero_apply, Ideal.dotGeneral_apply]
  rfl

/-- A bias vector of `n` entries laid along each of `m` rows, two spellings: its one-row form `[1, n]` repeated down
    the rows, against the vector placed on axis 1 of `[1, n]` and that row repeated down axis 0. Both read the vector at
    the column. -/
theorem bias_rows {α : Type} {m n : Nat} (b : (⟨1, ![n]⟩ : Shape).Idx → α)
    (sc : (⟨1, ![n]⟩ : Shape).ShapeCasts ⟨2, ![1, n]⟩) (sc' : (⟨2, ![1, n]⟩ : Shape).ShapeCasts ⟨2, ![1, n]⟩)
    (hb : (⟨2, ![1, n]⟩ : Shape).Broadcasts ⟨2, ![m, n]⟩)
    (bc1 : (⟨1, ![n]⟩ : Shape).BroadcastsInDim ⟨2, ![1, n]⟩ ![1])
    (bc2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b sc) sc') hb
      = broadcastInDim ⟨2, ![m, n]⟩ ![0, 1] bc2 (broadcastInDim ⟨2, ![1, n]⟩ ![1] bc1 b) := by
  rw [shapeCast_self]
  funext i
  obtain ⟨r, t, rfl⟩ : ∃ (r : Fin m) (t : Fin n), i = ix2 r t := ⟨i 0, i 1, eq_ix2 i⟩
  rw [broadcastTo_1b_ab_apply, broadcastInDim_oneRow_apply, shapeCast_a_1a_apply]
  refine (broadcastInDim_apply ![1] bc1 b (ix2 (0 : Fin 1) t) (ix1 t) ?_).symm
  intro a
  match a with
  | ⟨0, _⟩ =>
    show t.val = if n = 1 then 0 else t.val
    split
    · have := t.isLt; omega
    · rfl

end NarrowedProduct
-- ==== Proof.HeadTile.lean ====
import proofs.«112995_j35948876268151_1_alg».proof.Proof.Gen.KernelIdeal.Frame
import proofs.«112995_j35948876268151_1_alg».proof.Proof.HeadSpec
import proofs.«112995_j35948876268151_1_alg».proof.Proof.LibNarrowedProduct
import Idealize.ShloMosaic.Lib.KernelVsHost
import Idealize.ShloMosaic.Lib.ValueLayout
import Idealize.ShloMosaic.Lib.Pipeline.Value

/-!
# The last region computes the three-layer head

The program's last region has one grid point and twelve windows, each of whose blocks is its whole array. At that
point it loads eleven arrays — the pooled features `p` (64 × 64), the two state rows `x1`, `x2` (64 × 256 each), four
weight matrices and four biases in one-row form `[1, n]` — and stores, whole, into the twelfth

  `max (max ([x1 | x2 | p · Wfc + bfc] · Wfc1 + bfc1, 0) · Wfc2 + bfc2, 0) · Wfc3 + bfc3`,

every matrix product taken on operands narrowed to a sixteen-bit float format and accumulated into a zero matrix, every
bias row repeated down the 64 rows. Over the extended reals narrowing is the identity and `0 + s = s`, so each product is
the plain product; a one-row bias repeated down the rows is the bias vector laid along every row; and the maximum with a
repeated zero is the same on both sides. Hence the tile's value is the head `Cert.HeadSpec.headR` of the loaded arrays,
and, the one block covering the array, the output array after the region is that head of the arrays the region finds.
-/

set_option maxRecDepth 16384

noncomputable section

namespace Cert.KernelIdeal.HeadTile

open Cert.KernelIdeal Idealize.ShloMosaic Idealize.ShloMosaic.ValueIdx Idealize.ShloMosaic.TcCoe
open Idealize.ShloMosaic.Pipeline (Dat)
open NarrowedProduct (matmul_narrowed_eq_dot bias_rows)

/-! ## The tile's computation is the head -/

/-- The value the tile stores, as a function of the eleven arrays it loads, is the three-layer head of those arrays,
    when the four bias windows hold the one-row forms of the bias vectors. Layer by layer: each narrowed product into a
    zero matrix is the plain product; each one-row bias repeated down the rows is the bias vector laid along every row;
    the maximum with a matrix of zeros is the same matrix spelt as a repeated scalar; a cast between equal shapes is the
    identity; and the join of the three blocks along the columns is the same operation on both sides. -/
theorem payload_eq_head (p : FVec Ideal S64x64 .f32) (x1 x2 wfc : FVec Ideal S64x256 .f32) (bfc : FVec Ideal S256 .f32)
    (wfc1 : FVec Ideal S768x64 .f32) (bfc1 : FVec Ideal S64 .f32) (wfc2 : FVec Ideal S64x64 .f32) (bfc2 : FVec Ideal S64 .f32)
    (wfc3 : FVec Ideal S64x32 .f32) (bfc3 : FVec Ideal S32 .f32)
    (sc4 : S256.ShapeCasts S1x256) (sc6 sc8 : S64.ShapeCasts S1x64) (sc10 : S32.ShapeCasts S1x32) :
    Gen.k2_pay1 (F := Ideal)
        (Gen.k2_pay2 (F := Ideal) p wfc (shapeCast S1x256 bfc sc4) x1 x2 wfc1 (shapeCast S1x64 bfc1 sc6) wfc2 (shapeCast S1x64 bfc2 sc8))
        wfc3 (shapeCast S1x32 bfc3 sc10)
      = Cert.HeadSpec.headR (F := Ideal) p x1 x2 wfc bfc wfc1 bfc1 wfc2 bfc2 wfc3 bfc3 := by
  unfold Gen.k2_pay1 Gen.k2_pay2 Cert.HeadSpec.headR
  dsimp only
  rw [shapeCast_self x1, shapeCast_self x2, shapeCast_self p,
    bias_rows bfc sc4 _ _ Cert.ReferenceIdeal.Gen.bcast_S256_S1x256_1 Cert.ReferenceIdeal.Gen.bcast_S1x256_S64x256_0_1,
    bias_rows bfc1 sc6 _ _ Cert.ReferenceIdeal.Gen.bcast_S64_S1x64_1 Cert.ReferenceIdeal.Gen.bcast_S1x64_S64x64_0_1,
    bias_rows bfc2 sc8 _ _ Cert.ReferenceIdeal.Gen.bcast_S64_S1x64_1 Cert.ReferenceIdeal.Gen.bcast_S1x64_S64x64_0_1,
    bias_rows bfc3 sc10 _ _ Cert.ReferenceIdeal.Gen.bcast_S32_S1x32_1 Cert.ReferenceIdeal.Gen.bcast_S1x32_S64x32_0_1,
    broadcastInDim_constant (F := Ideal),
    matmul_narrowed_eq_dot dot_S64x64_S64x256_S64x256_1_0_0_1_n_n Cert.ReferenceIdeal.dot_S64x64_S64x256_S64x256_1_0_0_1_n_n rfl,
    matmul_narrowed_eq_dot dot_S64x768_S768x64_S64x64_1_0_0_1_n_n Cert.ReferenceIdeal.dot_S64x768_S768x64_S64x64_1_0_0_1_n_n rfl,
    matmul_narrowed_eq_dot dot_S64x64_S64x64_S64x64_1_0_0_1_n_n Cert.ReferenceIdeal.dot_S64x64_S64x64_S64x64_1_0_0_1_n_n rfl,
    matmul_narrowed_eq_dot dot_S64x64_S64x32_S64x32_1_0_0_1_n_n Cert.ReferenceIdeal.dot_S64x64_S64x32_S64x32_1_0_0_1_n_n rfl]

/-! ## From the tile to the array

The region has one grid point, and at it every window's block is its whole array: the block index is zero on both
axes, so an element of a block sits in the array at its own coordinates. -/

variable (V : (c : Dev nD) → (b : Ref sig .tc) → Buf (Elt Ideal) ((c : Thread nD τ).loc b))

theorem offsets_zero : (![0, 0] : Fin 2 → Nat) = fun _ => 0 := funext fun a => by fin_cases a <;> rfl

/-- The twelve index maps at the grid's points, decided: each is zero on both axes. -/
theorem index_zero : ∀ t : Fin cfg2.N,
    (win2_0.index t (0 : Fin 2) = 0 ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

/-! Each input window's block at a point is the window's array (read through a block at index zero). -/

theorem block0 (c : Dev nD) (t : Fin cfg2.N) : Gen.iblk2 (F := Ideal) V c 0 t = (V c main_v111 : Vec Ideal S64x64 .f32) := by
  funext y
  show V c main_v111 (((cfg2.win 0).blk t).view.emb y) = V c main_v111 y
  refine congrArg _ (funext fun a => Fin.ext ?_)
  obtain ⟨e0, e1⟩ := (index_zero t).1
  match a with
  | ⟨0, _⟩ => show win2_0.index t (0 : Fin 2) * 64 + 1 * (y 0).val = (y 0).val; omega
  | ⟨1, _⟩ => show win2_0.index t (1 : Fin 2) * 64 + 1 * (y 1).val = (y 1).val; omega

theorem block1 (c : Dev nD) (t : Fin cfg2.N) : Gen.iblk2 (F := Ideal) V c 1 t = (V c main_v120 : Vec Ideal S64x256 .f32) := by
  funext y
  show V c main_v120 (((cfg2.win 1).blk t).view.emb y) = V c main_v120 y
  refine congrArg _ (funext fun a => Fin.ext ?_)
  obtain ⟨e0, e1⟩ := (index_zero t).2.1
  match a with
  | ⟨0, _⟩ => show win2_1.index t (0 : Fin 2) * 64 + 1 * (y 0).val = (y 0).val; omega
  | ⟨1, _⟩ => show win2_1.index t (1 : Fin 2) * 256 + 1 * (y 1).val = (y 1).val; omega

theorem block2 (c : Dev nD) (t : Fin cfg2.N) : Gen.iblk2 (F := Ideal) V c 2 t = (V c main_v129 : Vec Ideal S64x256 .f32) := by
  funext y
  show V c main_v129 (((cfg2.win 2).blk t).view.emb y) = V c main_v129 y
  refine congrArg _ (funext fun a => Fin.ext ?_)
  obtain ⟨e0, e1⟩ := (index_zero t).2.2.1
  match a with
  | ⟨0, _⟩ => show win2_2.index t (0 : Fin 2) * 64 + 1 * (y 0).val = (y 0).val; omega
  | ⟨1, _⟩ => show win2_2.index t (1 : Fin 2) * 256 + 1 * (y 1).val = (y 1).val; omega

theorem block3 (c : Dev nD) (t : Fin cfg2.N) : Gen.iblk2 (F := Ideal) V c 3 t = (V c main_arg10 : Vec Ideal S64x256 .f32) := by
  funext y
  show V c main_arg10 (((cfg2.win 3).blk t).view.emb y) = V c main_arg10 y
  refine congrArg _ (funext fun a => Fin.ext ?_)
  obtain ⟨e0, e1⟩ := (index_zero t).2.2.2.1
  match a with
  | ⟨0, _⟩ => show win2_3.index t (0 : Fin 2) * 64 + 1 * (y 0).val = (y 0).val; omega
  | ⟨1, _⟩ => show win2_3.index t (1 : Fin 2) * 256 + 1 * (y 1).val = (y 1).val; omega

theorem block4 (c : Dev nD) (t : Fin cfg2.N) : Gen.iblk2 (F := Ideal) V c 4 t = (V c main_v130 : Vec Ideal S1x256 .f32) := by
  funext y
  show V c main_v130 (((cfg2.win 4).blk t).view.emb y) = V c main_v130 y
  refine congrArg _ (funext fun a => Fin.ext ?_)
  obtain ⟨e0, e1⟩ := (index_zero t).2.2.2.2.1
  match a with
  | ⟨0, _⟩ => show win2_4.index t (0 : Fin 2) * 1 + 1 * (y 0).val = (y 0).val; omega
  | ⟨1, _⟩ => show win2_4.index t (1 : Fin 2) * 256 + 1 * (y 1).val = (y 1).val; omega

theorem block5 (c : Dev nD) (t : Fin cfg2.N) : Gen.iblk2 (F := Ideal) V c 5 t = (V c main_arg12 : Vec Ideal S768x64 .f32) := by
  funext y
  show V c main_arg12 (((cfg2.win 5).blk t).view.emb y) = V c main_arg12 y
  refine congrArg _ (funext fun a => Fin.ext ?_)
  obtain ⟨e0, e1⟩ := (index_zero t).2.2.2.2.2.1
  match a with
  | ⟨0, _⟩ => show win2_5.index t (0 : Fin 2) * 768 + 1 * (y 0).val = (y 0).val; omega
  | ⟨1, _⟩ => show win2_5.index t (1 : Fin 2) * 64 + 1 * (y 1).val = (y 1).val; omega

theorem block6 (c : Dev nD) (t : Fin cfg2.N) : Gen.iblk2 (F := Ideal) V c 6 t = (V c main_v131 : Vec Ideal S1x64 .f32) := by
  funext y
  show V c main_v131 (((cfg2.win 6).blk t).view.emb y) = V c main_v131 y
  refine congrArg _ (funext fun a => Fin.ext ?_)
  obtain ⟨e0, e1⟩ := (index_zero t).2.2.2.2.2.2.1
  match a with
  | ⟨0, _⟩ => show win2_6.index t (0 : Fin 2) * 1 + 1 * (y 0).val = (y 0).val; omega
  | ⟨1, _⟩ => show win2_6.index t (1 : Fin 2) * 64 + 1 * (y 1).val = (y 1).val; omega

theorem block7 (c : Dev nD) (t : Fin cfg2.N) : Gen.iblk2 (F := Ideal) V c 7 t = (V c main_arg14 : Vec Ideal S64x64 .f32) := by
  funext y
  show V c main_arg14 (((cfg2.win 7).blk t).view.emb y) = V c main_arg14 y
  refine congrArg _ (funext fun a => Fin.ext ?_)
  obtain ⟨e0, e1⟩ := (index_zero t).2.2.2.2.2.2.2.1
  match a with
  | ⟨0, _⟩ => show win2_7.index t (0 : Fin 2) * 64 + 1 * (y 0).val = (y 0).val; omega
  | ⟨1, _⟩ => show win2_7.index t (1 : Fin 2) * 64 + 1 * (y 1).val = (y 1).val; omega

theorem block8 (c : Dev nD) (t : Fin cfg2.N) : Gen.iblk2 (F := Ideal) V c 8 t = (V c main_v132 : Vec Ideal S1x64 .f32) := by
  funext y
  show V c main_v132 (((cfg2.win 8).blk t).view.emb y) = V c main_v132 y
  refine congrArg _ (funext fun a => Fin.ext ?_)
  obtain ⟨e0, e1⟩ := (index_zero t).2.2.2.2.2.2.2.2.1
  match a with
  | ⟨0, _⟩ => show win2_8.index t (0 : Fin 2) * 1 + 1 * (y 0).val = (y 0).val; omega
  | ⟨1, _⟩ => show win2_8.index t (1 : Fin 2) * 64 + 1 * (y 1).val = (y 1).val; omega

theorem block9 (c : Dev nD) (t : Fin cfg2.N) : Gen.iblk2 (F := Ideal) V c 9 t = (V c main_arg16 : Vec Ideal S64x32 .f32) := by
  funext y
  show V c main_arg16 (((cfg2.win 9).blk t).view.emb y) = V c main_arg16 y
  refine congrArg _ (funext fun a => Fin.ext ?_)
  obtain ⟨e0, e1⟩ := (index_zero t).2.2.2.2.2.2.2.2.2.1
  match a with
  | ⟨0, _⟩ => show win2_9.index t (0 : Fin 2) * 64 + 1 * (y 0).val = (y 0).val; omega
  | ⟨1, _⟩ => show win2_9.index t (1 : Fin 2) * 32 + 1 * (y 1).val = (y 1).val; omega

theorem block10 (c : Dev nD) (t : Fin cfg2.N) : Gen.iblk2 (F := Ideal) V c 10 t = (V c main_v133 : Vec Ideal S1x32 .f32) := by
  funext y
  show V c main_v133 (((cfg2.win 10).blk t).view.emb y) = V c main_v133 y
  refine congrArg _ (funext fun a => Fin.ext ?_)
  obtain ⟨e0, e1⟩ := (index_zero t).2.2.2.2.2.2.2.2.2.2.1
  match a with
  | ⟨0, _⟩ => show win2_10.index t (0 : Fin 2) * 1 + 1 * (y 0).val = (y 0).val; omega
  | ⟨1, _⟩ => show win2_10.index t (1 : Fin 2) * 32 + 1 * (y 1).val = (y 1).val; omega

/-! ## What the one point writes back, and the array after the region -/

/-- What the tile leaves in the output window's buffer is its computation of the eleven loaded arrays: one store through
    the whole buffer, of a value built from eleven loads through whole buffers. -/
theorem out_eq_payload (x0 : Vec Ideal S64x64 .f32) (x1 x2 x3 : Vec Ideal S64x256 .f32) (x4 : Vec Ideal S1x256 .f32)
    (x5 : Vec Ideal S768x64 .f32) (x6 : Vec Ideal S1x64 .f32) (x7 : Vec Ideal S64x64 .f32) (x8 : Vec Ideal S1x64 .f32)
    (x9 : Vec Ideal S64x32 .f32) (x10 : Vec Ideal S1x32 .f32) :
    Gen.out2_11 (F := Ideal) x0 x1 x2 x3 x4 x5 x6 x7 x8 x9 x10
      = Gen.k2_pay1 (Gen.k2_pay2 x0 x3 x4 x1 x2 x5 x6 x7 x8) x9 x10 := by
  unfold Gen.out2_11
  rw [View.canon_unit_zero offsets_zero]
  simp only [View.ld_unit_zero (S := S64x64) offsets_zero, View.ld_unit_zero (S := S64x256) offsets_zero,
    View.ld_unit_zero (S := S1x256) offsets_zero, View.ld_unit_zero (S := S768x64) offsets_zero,
    View.ld_unit_zero (S := S1x64) offsets_zero, View.ld_unit_zero (S := S64x32) offsets_zero,
    View.ld_unit_zero (S := S1x32) offsets_zero]

/-- So, for buffers that hold the head's inputs — the pooled features, the two state rows, the four weight matrices, and
    the four biases in one-row form —, the output window's buffer ends holding the head. -/
theorem out_eq_head (x0 : Vec Ideal S64x64 .f32) (x1 x2 x3 : Vec Ideal S64x256 .f32) (x4 : Vec Ideal S1x256 .f32)
    (x5 : Vec Ideal S768x64 .f32) (x6 : Vec Ideal S1x64 .f32) (x7 : Vec Ideal S64x64 .f32) (x8 : Vec Ideal S1x64 .f32)
    (x9 : Vec Ideal S64x32 .f32) (x10 : Vec Ideal S1x32 .f32)
    (p : FVec Ideal S64x64 .f32) (r1 r2 wfc : FVec Ideal S64x256 .f32) (bfc : FVec Ideal S256 .f32)
    (wfc1 : FVec Ideal S768x64 .f32) (bfc1 : FVec Ideal S64 .f32) (wfc2 : FVec Ideal S64x64 .f32) (bfc2 : FVec Ideal S64 .f32)
    (wfc3 : FVec Ideal S64x32 .f32) (bfc3 : FVec Ideal S32 .f32)
    (sc4 : S256.ShapeCasts S1x256) (sc6 sc8 : S64.ShapeCasts S1x64) (sc10 : S32.ShapeCasts S1x32)
    (e0 : x0 = p) (e1 : x1 = r1) (e2 : x2 = r2) (e3 : x3 = wfc) (e4 : x4 = shapeCast S1x256 bfc sc4) (e5 : x5 = wfc1)
    (e6 : x6 = shapeCast S1x64 bfc1 sc6) (e7 : x7 = wfc2) (e8 : x8 = shapeCast S1x64 bfc2 sc8) (e9 : x9 = wfc3)
    (e10 : x10 = shapeCast S1x32 bfc3 sc10) :
    Gen.out2_11 (F := Ideal) x0 x1 x2 x3 x4 x5 x6 x7 x8 x9 x10
      = Cert.HeadSpec.headR (F := Ideal) p r1 r2 wfc bfc wfc1 bfc1 wfc2 bfc2 wfc3 bfc3 := by
  subst e0 e1 e2 e3 e4 e5 e6 e7 e8 e9 e10
  rw [out_eq_payload, payload_eq_head]

/-- The output window's block at a point is the whole array: reading an array through it is reading the array. -/
theorem read_whole_block (t : Fin cfg2.N) (G : Vec Ideal S64x32 .f32) :
    (cfg2.win 11).cut (grid2.coords t) G = ((cfg2.win 11).blk t).view.read (Elt Ideal) G := by
  funext y
  show G y = G (((cfg2.win 11).blk t).view.emb y)
  refine congrArg G (funext fun a => Fin.ext ?_)
  obtain ⟨e0, e1⟩ := (index_zero t).2.2.2.2.2.2.2.2.2.2.2
  match a with
  | ⟨0, _⟩ => show (y 0).val = win2_11.index t (0 : Fin 2) * 64 + 1 * (y 0).val; omega
  | ⟨1, _⟩ => show (y 1).val = win2_11.index t (1 : Fin 2) * 32 + 1 * (y 1).val; omega

/-- WHAT THE POINT WRITES BACK is the head of the arrays the region finds, read through the point's block. -/
theorem flushed_eq_head (c : Dev nD) (t : Fin cfg2.N) (bfc : FVec Ideal S256 .f32) (bfc1 bfc2 : FVec Ideal S64 .f32) (bfc3 : FVec Ideal S32 .f32)
    {sc4 : S256.ShapeCasts S1x256} {sc6 sc8 : S64.ShapeCasts S1x64} {sc10 : S32.ShapeCasts S1x32}
    (h4 : (V c main_v130 : Vec Ideal S1x256 .f32) = shapeCast S1x256 bfc sc4)
    (h6 : (V c main_v131 : Vec Ideal S1x64 .f32) = shapeCast S1x64 bfc1 sc6)
    (h8 : (V c main_v132 : Vec Ideal S1x64 .f32) = shapeCast S1x64 bfc2 sc8)
    (h10 : (V c main_v133 : Vec Ideal S1x32 .f32) = shapeCast S1x32 bfc3 sc10) :
    (Gen.dat2 (F := Ideal) V c).flushed 11 t
      = ((cfg2.win 11).blk t).view.read (Elt Ideal)
          (Cert.HeadSpec.headR (F := Ideal) (V c main_v111) (V c main_v120) (V c main_v129) (V c main_arg10) bfc (V c main_arg12) bfc1 (V c main_arg14) bfc2 (V c main_arg16) bfc3) := by
  show (cfg2.win 11).cut (grid2.coords t) ((Gen.dat2 V c).after 11 t) = _
  rw [Gen.after2_11,
    out_eq_head (Gen.iblk2 V c 0 t) (Gen.iblk2 V c 1 t) (Gen.iblk2 V c 2 t) (Gen.iblk2 V c 3 t) (Gen.iblk2 V c 4 t) (Gen.iblk2 V c 5 t) (Gen.iblk2 V c 6 t) (Gen.iblk2 V c 7 t) (Gen.iblk2 V c 8 t) (Gen.iblk2 V c 9 t) (Gen.iblk2 V c 10 t)
      (V c main_v111) (V c main_v120) (V c main_v129) (V c main_arg10) bfc (V c main_arg12) bfc1 (V c main_arg14) bfc2
      (V c main_arg16) bfc3 sc4 sc6 sc8 sc10
      (block0 V c t) (block1 V c t) (block2 V c t) (block3 V c t) ((block4 V c t).trans h4) (block5 V c t)
      ((block6 V c t).trans h6) (block7 V c t) ((block8 V c t).trans h8) (block9 V c t) ((block10 V c t).trans h10)]
  exact read_whole_block t _

/-- An index of the output array is in a point's block iff each coordinate is in the block's range on its axis. -/
theorem mem_block_iff (t : Fin cfg2.N) (i : S64x32.Idx) :
    i ∈ ((cfg2.win 11).blk t).view.set ↔ ∀ a : Fin 2, win2_11.index t a * S64x32.size a ≤ (i a).val ∧ (i a).val < win2_11.index t a * S64x32.size a + S64x32.size a := by
  show i ∈ ((View.whole main_v134).slice (win2_11.rect t)).set ↔ _
  rw [View.set_slice_whole, Rect.mem_set_unit]
  exact Iff.rfl

/-- Every index of the output array is in the one point's block. -/
theorem covered (i : S64x32.Idx) : ∃ t : Fin cfg2.N, (cfg2.win 11).flush t = true ∧ i ∈ ((cfg2.win 11).blk t).view.set := by
  refine ⟨Gen.t2_0, Gen.flush2_11 _, ?_⟩
  rw [mem_block_iff]
  obtain ⟨e0, e1⟩ := (index_zero Gen.t2_0).2.2.2.2.2.2.2.2.2.2.2
  intro a
  match a with
  | ⟨0, _⟩ =>
    show win2_11.index Gen.t2_0 (0 : Fin 2) * 64 ≤ (i 0).val ∧ (i 0).val < win2_11.index Gen.t2_0 (0 : Fin 2) * 64 + 64
    have h0 : (i 0).val < 64 := (i 0).isLt
    omega
  | ⟨1, _⟩ =>
    show win2_11.index Gen.t2_0 (1 : Fin 2) * 32 ≤ (i 1).val ∧ (i 1).val < win2_11.index Gen.t2_0 (1 : Fin 2) * 32 + 32
    have h1 : (i 1).val < 32 := (i 1).isLt
    omega

/-- THE OUTPUT ARRAY AFTER THE REGION is the head of the arrays the region finds: the pooled features, the two state
    rows and the four weight matrices as they are, the four biases as the vectors whose one-row forms the bias windows'
    arrays are. -/
theorem head_array (c : Dev nD) (bfc : FVec Ideal S256 .f32) (bfc1 bfc2 : FVec Ideal S64 .f32) (bfc3 : FVec Ideal S32 .f32)
    {sc4 : S256.ShapeCasts S1x256} {sc6 sc8 : S64.ShapeCasts S1x64} {sc10 : S32.ShapeCasts S1x32}
    (h4 : (V c main_v130 : Vec Ideal S1x256 .f32) = shapeCast S1x256 bfc sc4)
    (h6 : (V c main_v131 : Vec Ideal S1x64 .f32) = shapeCast S1x64 bfc1 sc6)
    (h8 : (V c main_v132 : Vec Ideal S1x64 .f32) = shapeCast S1x64 bfc2 sc8)
    (h10 : (V c main_v133 : Vec Ideal S1x32 .f32) = shapeCast S1x32 bfc3 sc10) :
    (Gen.dat2 (F := Ideal) V c).arrAt 11 cfg2.N
      = Cert.HeadSpec.headR (F := Ideal) (V c main_v111) (V c main_v120) (V c main_v129) (V c main_arg10) bfc (V c main_arg12) bfc1 (V c main_arg14) bfc2 (V c main_arg16) bfc3 :=
  (Gen.dat2 (F := Ideal) V c).arrAt_eq_of_cover 11 _
    (fun t _ => flushed_eq_head V c t bfc bfc1 bfc2 bfc3 h4 h6 h8 h10) covered

end Cert.KernelIdeal.HeadTile

end
-- ==== Proof.Assemble.lean ====
import proofs.«112995_j35948876268151_1_alg».proof.Proof.Gen.KernelIdeal.Frame
import proofs.«112995_j35948876268151_1_alg».proof.Proof.OutRun
import proofs.«112995_j35948876268151_1_alg».proof.Proof.Stages
import proofs.«112995_j35948876268151_1_alg».proof.Proof.RowTiles
import proofs.«112995_j35948876268151_1_alg».proof.Proof.HeadTile

/-!
# The kernel program's result is the reference's result of the same arguments

The contents of the buffers at each boundary between the kernel program's segments are followed from the launch to
the return, over the extended reals. After the first stretch the node rows are the reference's gathered rows. The
first region tiles the rows of `rows · W1` in blocks of 5000 and leaves the whole product, entry `(a, b)` the sum over
`k` of `rows (a, k) · W1 (k, b)`: the reference's `dot_general`. The second stretch turns it into the first layer's
output, the second region multiplies by `W2` in the same way, the third stretch aggregates, pools and gathers the
state rows, and the last region is the three-layer head on one block. At every boundary the buffers that later
segments read hold the reference's stage values of the launch contents, so the result buffer ends at the
reference's result as a function of the arguments.
-/

set_option maxRecDepth 16384

noncomputable section

namespace Cert.Bridge

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- At the first region's entry. -/
theorem at1 : Carried (W0 m ρ c) (W1 m ρ c) := carried_first _

/-- The first region writes only its product; everything kept stays. -/
theorem at2 : Carried (W0 m ρ c) (W2 m ρ c) where
  a0 := (W2_of_ne m ρ c main_arg0 (by decide)).trans (at1 m ρ c).a0
  a3 := (W2_of_ne m ρ c main_arg3 (by decide)).trans (at1 m ρ c).a3
  a4 := (W2_of_ne m ρ c main_arg4 (by decide)).trans (at1 m ρ c).a4
  a5 := (W2_of_ne m ρ c main_arg5 (by decide)).trans (at1 m ρ c).a5
  a7 := (W2_of_ne m ρ c main_arg7 (by decide)).trans (at1 m ρ c).a7
  a8 := (W2_of_ne m ρ c main_arg8 (by decide)).trans (at1 m ρ c).a8
  a9 := (W2_of_ne m ρ c main_arg9 (by decide)).trans (at1 m ρ c).a9
  a10 := (W2_of_ne m ρ c main_arg10 (by decide)).trans (at1 m ρ c).a10
  a11 := (W2_of_ne m ρ c main_arg11 (by decide)).trans (at1 m ρ c).a11
  a12 := (W2_of_ne m ρ c main_arg12 (by decide)).trans (at1 m ρ c).a12
  a13 := (W2_of_ne m ρ c main_arg13 (by decide)).trans (at1 m ρ c).a13
  a14 := (W2_of_ne m ρ c main_arg14 (by decide)).trans (at1 m ρ c).a14
  a15 := (W2_of_ne m ρ c main_arg15 (by decide)).trans (at1 m ρ c).a15
  a16 := (W2_of_ne m ρ c main_arg16 (by decide)).trans (at1 m ρ c).a16
  a17 := (W2_of_ne m ρ c main_arg17 (by decide)).trans (at1 m ρ c).a17
  v1 := (W2_of_ne m ρ c main_v1 (by decide)).trans (at1 m ρ c).v1
  v3 := (W2_of_ne m ρ c main_v3 (by decide)).trans (at1 m ρ c).v3

/-- A left coordinate of the reference's first product. -/
theorem lidx11 (a : Fin 100000) (b : Fin 64) (k : Fin 256) : lidx_main_v11 (ix2 a b) k = ix2 a k :=
  funext fun d => Fin.ext (by match d with | ⟨0, _⟩ => rfl | ⟨1, _⟩ => rfl)
theorem ridx11 (a : Fin 100000) (b : Fin 64) (k : Fin 256) : ridx_main_v11 (ix2 a b) k = ix2 k b :=
  funext fun d => Fin.ext (by match d with | ⟨0, _⟩ => rfl | ⟨1, _⟩ => rfl)
theorem lidx56 (a : Fin 100000) (b : Fin 64) (k : Fin 64) : lidx_main_v56 (ix2 a b) k = ix2 a k :=
  funext fun d => Fin.ext (by match d with | ⟨0, _⟩ => rfl | ⟨1, _⟩ => rfl)
theorem ridx56 (a : Fin 100000) (b : Fin 64) (k : Fin 64) : ridx_main_v56 (ix2 a b) k = ix2 k b :=
  funext fun d => Fin.ext (by match d with | ⟨0, _⟩ => rfl | ⟨1, _⟩ => rfl)

/-- The first region leaves the reference's first product. -/
theorem v11_at2 : W2 m ρ c (Proc.devRef .tc main_v11) = val_main_v11 (F := Ideal) (W0 m ρ c (Proc.devRef .tc main_arg1)) (W0 m ρ c (Proc.devRef .tc main_arg5)) (W0 m ρ c (Proc.devRef .tc main_arg6)) := by
  refine (W2_arr m ρ c 2).trans ?_
  funext i
  obtain ⟨a, b, rfl⟩ : ∃ (a : Fin 100000) (b : Fin 64), i = ix2 a b := ⟨i 0, i 1, eq_ix2 i⟩
  refine (Cert.KernelIdeal.RowTiles.region0_at_of (V1 m ρ) c _ _ (first_rows (W0 m ρ c)) (first_weights (W0 m ρ c)) a b).trans ?_
  refine ((val_main_v11_apply _ _ _ (ix2 a b)).trans ?_).symm
  exact Finset.sum_congr rfl fun k _ => by rw [lidx11, ridx11]

/-- At the second region's entry. -/
theorem at4 : Carried (W0 m ρ c) (W4 m ρ c) := ((at2 m ρ c).second).relu

theorem v55_at4 : W4 m ρ c (Proc.devRef .tc main_v55) = val_main_v55 (F := Ideal) (W0 m ρ c (Proc.devRef .tc main_arg1)) (W0 m ρ c (Proc.devRef .tc main_arg2)) (W0 m ρ c (Proc.devRef .tc main_arg3)) (W0 m ρ c (Proc.devRef .tc main_arg5)) (W0 m ρ c (Proc.devRef .tc main_arg6)) (W0 m ρ c (Proc.devRef .tc main_arg7)) :=
  second_layer_in (at2 m ρ c) (v11_at2 m ρ c)

/-- The second region writes only its product; its weights are read through an input window and stay. -/
theorem at5 : Carried (W0 m ρ c) (W5 m ρ c) where
  a0 := (W5_of_ne m ρ c main_arg0 (by decide)).trans (at4 m ρ c).a0
  a3 := (W5_of_ne m ρ c main_arg3 (by decide)).trans (at4 m ρ c).a3
  a4 := (W5_of_ne m ρ c main_arg4 (by decide)).trans (at4 m ρ c).a4
  a5 := (W5_of_ne m ρ c main_arg5 (by decide)).trans (at4 m ρ c).a5
  a7 := (W5_of_ne m ρ c main_arg7 (by decide)).trans (at4 m ρ c).a7
  a8 := ((W5_arr m ρ c 1).trans (((dat1 (V4 m ρ) c).arrAt_in 1 rfl _).trans (A_eq1 (V4 m ρ) c 1))).trans (at4 m ρ c).a8
  a9 := (W5_of_ne m ρ c main_arg9 (by decide)).trans (at4 m ρ c).a9
  a10 := (W5_of_ne m ρ c main_arg10 (by decide)).trans (at4 m ρ c).a10
  a11 := (W5_of_ne m ρ c main_arg11 (by decide)).trans (at4 m ρ c).a11
  a12 := (W5_of_ne m ρ c main_arg12 (by decide)).trans (at4 m ρ c).a12
  a13 := (W5_of_ne m ρ c main_arg13 (by decide)).trans (at4 m ρ c).a13
  a14 := (W5_of_ne m ρ c main_arg14 (by decide)).trans (at4 m ρ c).a14
  a15 := (W5_of_ne m ρ c main_arg15 (by decide)).trans (at4 m ρ c).a15
  a16 := (W5_of_ne m ρ c main_arg16 (by decide)).trans (at4 m ρ c).a16
  a17 := (W5_of_ne m ρ c main_arg17 (by decide)).trans (at4 m ρ c).a17
  v1 := (W5_of_ne m ρ c main_v1 (by decide)).trans (at4 m ρ c).v1
  v3 := (W5_of_ne m ρ c main_v3 (by decide)).trans (at4 m ρ c).v3

/-- The second region leaves the reference's second product. -/
theorem v56_at5 : W5 m ρ c (Proc.devRef .tc main_v56) = val_main_v56 (F := Ideal) (W0 m ρ c (Proc.devRef .tc main_arg1)) (W0 m ρ c (Proc.devRef .tc main_arg2)) (W0 m ρ c (Proc.devRef .tc main_arg3)) (W0 m ρ c (Proc.devRef .tc main_arg5)) (W0 m ρ c (Proc.devRef .tc main_arg6)) (W0 m ρ c (Proc.devRef .tc main_arg7)) (W0 m ρ c (Proc.devRef .tc main_arg8)) := by
  refine (W5_arr m ρ c 2).trans ?_
  funext i
  obtain ⟨a, b, rfl⟩ : ∃ (a : Fin 100000) (b : Fin 64), i = ix2 a b := ⟨i 0, i 1, eq_ix2 i⟩
  refine (Cert.KernelIdeal.RowTiles.region1_at_of (V4 m ρ) c _ _ (v55_at4 m ρ c) (at4 m ρ c).a8 a b).trans ?_
  refine ((val_main_v56_apply _ _ _ _ _ _ _ (ix2 a b)).trans ?_).symm
  exact Finset.sum_congr rfl fun k _ => by rw [lidx56, ridx56]

/-- At the last region's entry. -/
theorem at6 : Carried (W0 m ρ c) (W6 m ρ c) := (at5 m ρ c).third

/-- The last region leaves the reference's result of the launch contents. -/
theorem out_at7 : W7 m ρ c (Proc.devRef .tc main_v134)
    = val_main_v148 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) := by
  refine (W7_arr m ρ c 11).trans ?_
  refine (Cert.KernelIdeal.HeadTile.head_array (V6 m ρ) c (W0 m ρ c (Proc.devRef .tc main_arg11)) (W0 m ρ c (Proc.devRef .tc main_arg13)) (W0 m ρ c (Proc.devRef .tc main_arg15)) (W0 m ρ c (Proc.devRef .tc main_arg17))
    (third_bias0 (at5 m ρ c)) (third_bias1 (at5 m ρ c)) (third_bias2 (at5 m ρ c)) (third_bias3 (at5 m ρ c))).trans ?_
  show Cert.HeadSpec.headR (F := Ideal) (W6 m ρ c (Proc.devRef .tc main_v111)) (W6 m ρ c (Proc.devRef .tc main_v120)) (W6 m ρ c (Proc.devRef .tc main_v129))
    (W6 m ρ c (Proc.devRef .tc main_arg10)) _ (W6 m ρ c (Proc.devRef .tc main_arg12)) _ (W6 m ρ c (Proc.devRef .tc main_arg14)) _ (W6 m ρ c (Proc.devRef .tc main_arg16)) _ = _
  rw [show W6 m ρ c (Proc.devRef .tc main_v111) = _ from third_pooled (at5 m ρ c) (v56_at5 m ρ c),
    show W6 m ρ c (Proc.devRef .tc main_v120) = _ from third_state0 (at5 m ρ c),
    show W6 m ρ c (Proc.devRef .tc main_v129) = _ from third_state1 (at5 m ρ c),
    (at6 m ρ c).a10, (at6 m ρ c).a12, (at6 m ρ c).a14, (at6 m ρ c).a16]
  exact (result_is_head _ _ _ _ _ _ _ _ _ _ _ _ _ _ _ _ _ _).symm

end Cert.Bridge

/-! ## The run -/

namespace Cert.KernelIdeal.OutRun

open Cert.KernelIdeal Cert.KernelIdeal.Gen Cert.ReferenceIdeal.Read
open Idealize.ShloMosaic Idealize.ShloMosaic.TcCoe Idealize.SL.Sem

/-- Every weakly fair execution of the idealized kernel program terminates with its result at the reference's
    result of the launch contents of the arguments, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v134)
        = val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (Cert.Bridge.out_at7 m ρ c), (h c).2⟩) (run_out (F := Ideal) m ρ)

end Cert.KernelIdeal.OutRun

end
-- ==== Proof.lean ====
/-
  Equivalence over the extended reals of a two-layer graph convolution network with a three-layer head, written as
  three tiled kernels among host operations, against its plain reference.

  Both programs gather an embedding row per node, apply twice a normalized neighbourhood sum — project the features
  by a weight matrix; weigh every edge by `rsqrt (deg src) · w · rsqrt (deg dst)`, `deg` the weighted in-degree plus one;
  add the weighted projected features of the sources into the targets, a self-loop term `rsqrt (deg)² · h` and a bias —
  with a maximum against zero in between, average the node features over each graph, and feed the average, joined
  with two embedding rows per graph, to three affine layers. The kernel program computes the two projections and the
  whole head in tiled kernels whose matrix products round their operands to a shorter float format and start from
  a zero accumulator; over the extended reals a change of format is the identity and a product into a zero accumulator
  is the plain sum over the contracted coordinate, which is what the reference's `dot_general` is. Everything else
  is the same host operations on the same operands, in the same order of dependence. No law that needs finiteness is
  used, so the precondition is never opened.

  The three frames are the generated ones (the reference's is its generated run with the result dropped); the ideal
  pass rewrote nothing, so there is nothing to preserve; the value claim pairs the kernel program's run, whose result
  is read off the contents at the last segment boundary (Proof/Assemble.lean), with the reference's generated run.
-/
import proofs.«112995_j35948876268151_1_alg».proof.Defs
import proofs.«112995_j35948876268151_1_alg».proof.Proof.Gen.Kernel
import proofs.«112995_j35948876268151_1_alg».proof.Proof.Gen.Kernel.Frame
import proofs.«112995_j35948876268151_1_alg».proof.Proof.Gen.KernelIdeal
import proofs.«112995_j35948876268151_1_alg».proof.Proof.Gen.KernelIdeal.Frame
import proofs.«112995_j35948876268151_1_alg».proof.Proof.Gen.ReferenceIdeal
import proofs.«112995_j35948876268151_1_alg».proof.Proof.Gen.Pre_finite_inputs
import proofs.«112995_j35948876268151_1_alg».proof.Proof.Gen.ReferenceIdeal.Run
import proofs.«112995_j35948876268151_1_alg».proof.Proof.Gen.ReferenceIdeal.Read
import proofs.«112995_j35948876268151_1_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the reference's last stage value of the kernel program's arguments: the kernel program by
    its boundary contents, the reference by its run, the arguments' agreement rewritten. -/
theorem algebraic : Cert.algebraic_KernelIdeal_ReferenceIdeal := by
  intro m ρ m' ρ' _ hagree
  refine ⟨fun c => Cert.ReferenceIdeal.Read.val_main_v148 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)),
    Cert.KernelIdeal.OutRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v148_eq]
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
